-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x64x1024 : Shape := ⟨3, ![8, 64, 1024]⟩
abbrev S1024x1024 : Shape := ⟨2, ![1024, 1024]⟩
abbrev S1024 : Shape := ⟨1, ![1024]⟩
abbrev S1x2048 : Shape := ⟨2, ![1, 2048]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x64x1024 : S_.BroadcastsInDim S8x64x1024 (![] : Fin 0 → Fin S8x64x1024.rank)
  reducesTo_S8x64x1024_S_d0_1_2 : S8x64x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024 .f32) (main_arg8 : FVec F S1x2048 .f32) (main_arg9 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1x2048 .f32) (main_arg9 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x1024 .f32) (main_arg1 : FVec F S8x64x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1x2048 .f32) (main_arg9 : FVec F S1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x64x1024 .f32 := Host.absf main_arg1
  let main_cst_0 : FVec F S_ .f32 := constant S_ .f32 0x7F800000#32
  let main_v5 : FVec F S8x64x1024 .f32 := broadcastInDim S8x64x1024 ![] bcast_S_S8x64x1024 main_cst_0
  let main_v6 : IVec S8x64x1024 1 := cmpf .olt main_v4 main_v5
  let main_c_1 : IVec S_ 1 := constantI S_ 1 1#1
  let main_v7 : IVec S_ 1 := (fun x v => Host.reduce IntOp.andi x v reducesTo_S8x64x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S8x4096x1024 : Shape := ⟨3, ![8, 4096, 1024]⟩
abbrev S8x64x1024 : Shape := ⟨3, ![8, 64, 1024]⟩
abbrev S1024x1024 : Shape := ⟨2, ![1024, 1024]⟩
abbrev S1024 : Shape := ⟨1, ![1024]⟩
abbrev S1x2048 : Shape := ⟨2, ![1, 2048]⟩
abbrev S1 : Shape := ⟨1, ![1]⟩
abbrev S1x1024 : Shape := ⟨2, ![1, 1024]⟩
abbrev S1x64x1024 : Shape := ⟨3, ![1, 64, 1024]⟩
abbrev S64x1024 : Shape := ⟨2, ![64, 1024]⟩
abbrev S1x2048x1024 : Shape := ⟨3, ![1, 2048, 1024]⟩
abbrev S2048x1024 : Shape := ⟨2, ![2048, 1024]⟩
abbrev S2048x64 : Shape := ⟨2, ![2048, 64]⟩
abbrev S2048 : Shape := ⟨1, ![2048]⟩
abbrev S2048x1 : Shape := ⟨2, ![2048, 1]⟩
abbrev S1x1 : Shape := ⟨2, ![1, 1]⟩

abbrev nBuf : Space → Nat
  | .hbm => 21
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x2048, .f32⟩
  | .hbm, ⟨9, _⟩ => ⟨S1, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S8x64x1024, .bf16⟩
  | .hbm, ⟨19, _⟩ => ⟨S8x64x1024, .bf16⟩
  | .hbm, ⟨20, _⟩ => ⟨S8x4096x1024, .f32⟩
  | .local _ .vmem, ⟨0, _⟩ => ⟨S1x64x1024, .f32⟩
  | .local _ .vmem, ⟨1, _⟩ => ⟨S1x64x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x2048x1024, .f32⟩
  | .local _ .vmem, ⟨11, _⟩ => ⟨S1x2048x1024, .f32⟩
  | .local _ .vmem, ⟨12, _⟩ => ⟨S1x64x1024, .bf16⟩
  | .local _ .vmem, ⟨13, _⟩ => ⟨S1x64x1024, .bf16⟩
  | .local _ .vmem, ⟨14, _⟩ => ⟨S1x64x1024, .bf16⟩
  | .local _ .vmem, ⟨15, _⟩ => ⟨S1x64x1024, .bf16⟩
  | .local _ .vmem, ⟨16, _⟩ => ⟨S1024x1024, .bf16⟩
  | .local _ .vmem, ⟨17, _⟩ => ⟨S1024, .f32⟩
  | .local _ .vmem, ⟨18, _⟩ => ⟨S1x1024, .f32⟩
  | .local _ .vmem, ⟨19, _⟩ => ⟨S1x1024, .f32⟩
  | .local _ .vmem, ⟨20, _⟩ => ⟨S1, .f32⟩
  | .local _ .vmem, ⟨21, _⟩ => ⟨S1x2048x1024, .f32⟩
  | .local _ .vmem, ⟨22, _⟩ => ⟨S1x2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x2048x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  transposes_S1024x1024_S1024x1024_1_0 : S1024x1024.Transposes [1, 0] S1024x1024
  bitsLt_bf16_f32 : FTy.bits .bf16 < FTy.bits .f32
  slices_S1x2048_S1x1024_0_0 : S1x2048.Slices ![0, 0] S1x1024
  slices_S1x2048_S1x1024_0_1024 : S1x2048.Slices ![0, 1024] S1x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  shapeCasts_S64x1024_S1x64x1024 : S64x1024.ShapeCasts S1x64x1024
  packedbf16_S1x64x1024_S1x64x1024_0_0_0 : (Rect.unit (s := S1x64x1024) ![0, 0, 0] S1x64x1024.size inb_S1x64x1024_S1x64x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  broadcasts_S1x1024_S2048x1024 : S1x1024.Broadcasts S2048x1024
  reduces_S2048x64_S2048 : S2048x64.Reduces [1] S2048
  shapeCasts_S2048_S2048x1 : S2048.ShapeCasts S2048x1
  broadcasts_S2048x1_S2048x64 : S2048x1.Broadcasts S2048x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S2048x1024_S2048 : S2048x1024.Reduces [1] S2048
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  broadcasts_S2048x1_S2048x1024 : S2048x1.Broadcasts S2048x1024
  shapeCasts_S2048x1024_S1x2048x1024 : S2048x1024.ShapeCasts S1x2048x1024
  dot_S64x1024_S1024x1024_S64x1024_1_0_0_1_n_n_wf : DotDims.WF S64x1024 S1024x1024 S64x1024 [1] [0] [0] [1] [] []
  dot_S2048x1024_S1024x1024_S2048x1024_1_0_0_1_n_n_wf : DotDims.WF S2048x1024 S1024x1024 S2048x1024 [1] [0] [0] [1] [] []
  dot_S2048x1024_S64x1024_S2048x64_1_1_0_0_n_n_wf : DotDims.WF S2048x1024 S64x1024 S2048x64 [1] [1] [0] [0] [] []
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S8x64x1024.size a
  hwx0_0 : ∀ i : grid0.Coords, EltTy.bits .f32 = 32 ∨ (Rect.block (s := S8x64x1024) S1x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S8x64x1024.size a
  hwx0_5 : ∀ i : grid0.Coords, EltTy.bits .bf16 = 32 ∨ (Rect.block (s := S8x64x1024) S1x64x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1024.size a ≤ S8x64x1024.size a
  hwx0_6 : ∀ i : grid0.Coords, EltTy.bits .bf16 = 32 ∨ (Rect.block (s := S8x64x1024) S1x64x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x4096x1024.size a
  hwx1_0 : ∀ i : grid1.Coords, EltTy.bits .f32 = 32 ∨ (Rect.block (s := S8x4096x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1024.size a ≤ S8x64x1024.size a
  hwx1_1 : ∀ i : grid1.Coords, EltTy.bits .bf16 = 32 ∨ (Rect.block (s := S8x64x1024) S1x64x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x1024.size a ≤ S8x64x1024.size a
  hwx1_2 : ∀ i : grid1.Coords, EltTy.bits .bf16 = 32 ∨ (Rect.block (s := S8x64x1024) S1x64x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x2048x1024.size a ≤ S8x4096x1024.size a
  hwx1_8 : ∀ i : grid1.Coords, EltTy.bits .f32 = 32 ∨ (Rect.block (s := S8x4096x1024) S1x2048x1024.size (cc1_transform_8 i) (hinb1_8 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg1) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x64x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S1x64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_1) S1x64x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x2048x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S8x64x1024 : Shape := ⟨3, ![8, 64, 1024]⟩
abbrev S1024x1024 : Shape := ⟨2, ![1024, 1024]⟩
abbrev S1024 : Shape := ⟨1, ![1024]⟩
abbrev S1x2048 : Shape := ⟨2, ![1, 2048]⟩
abbrev S1 : Shape := ⟨1, ![1]⟩
abbrev S1x1x1024 : Shape := ⟨3, ![1, 1, 1024]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S8x4096x2048 : Shape := ⟨3, ![8, 4096, 2048]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x2048, .f32⟩
  | .hbm, ⟨9, _⟩ => ⟨S1, .f32⟩
  | .hbm, ⟨10, _⟩ => ⟨S8x4096x1024, .f32⟩
  | .hbm, ⟨11, _⟩ => ⟨S1x1x1024, .f32⟩
  | .hbm, ⟨12, _⟩ => ⟨S8x4096x1024, .f32⟩
  | .hbm, ⟨13, _⟩ => ⟨S8x4096x1024, .f32⟩
  | .hbm, ⟨14, _⟩ => ⟨S8x64x1024, .f32⟩
  | .hbm, ⟨15, _⟩ => ⟨S1x1x1024, .f32⟩
  | .hbm, ⟨16, _⟩ => ⟨S8x64x1024, .f32⟩
  | .hbm, ⟨17, _⟩ => ⟨S8x64x1024, .f32⟩
  | .hbm, ⟨18, _⟩ => ⟨S8x64x1024, .f32⟩
  | .hbm, ⟨19, _⟩ => ⟨S1x1x1024, .f32⟩
  | .hbm, ⟨20, _⟩ => ⟨S8x64x1024, .f32⟩
  | .hbm, ⟨21, _⟩ => ⟨S8x64x1024, .f32⟩
  | .hbm, ⟨22, _⟩ => ⟨S8x4096x64, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096x1, .f32⟩
  | .hbm, ⟨29, _⟩ => ⟨S8x4096x64, .f32⟩
  | .hbm, ⟨30, _⟩ => ⟨S8x4096x64, .f32⟩
  | .hbm, ⟨31, _⟩ => ⟨S8x4096x64, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x64, .f32⟩
  | .hbm, ⟨36, _⟩ => ⟨S8x4096x64, .f32⟩
  | .hbm, ⟨37, _⟩ => ⟨S_, .f32⟩
  | .hbm, ⟨38, _⟩ => ⟨S_, .f32⟩
  | .hbm, ⟨39, _⟩ => ⟨S8x4096x64, .f32⟩
  | .hbm, ⟨40, _⟩ => ⟨S8x4096x64, .f32⟩
  | .hbm, ⟨41, _⟩ => ⟨S8x4096x1024, .f32⟩
  | .hbm, ⟨42, _⟩ => ⟨S8x4096x1024, .f32⟩
  | .hbm, ⟨43, _⟩ => ⟨S8x4096x2048, .f32⟩
  | .hbm, ⟨44, _⟩ => ⟨S8x4096x1, .f32⟩
  | .hbm, ⟨45, _⟩ => ⟨S1x1x1, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S1x1x1024_S8x64x1024_0_1_2 : S1x1x1024.BroadcastsInDim S8x64x1024 (![0, 1, 2] : Fin 3 → Fin S8x64x1024.rank)
  reducesTo_S8x4096x64_S8x4096_d2 : S8x4096x64.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x64_0_1_2 : S8x4096x1.BroadcastsInDim S8x4096x64 (![0, 1, 2] : Fin 3 → Fin S8x4096x64.rank)
  bcast_S_S8x4096x64 : S_.BroadcastsInDim S8x4096x64 (![] : Fin 0 → Fin S8x4096x64.rank)
  concatenates_S8x4096x1024_S8x4096x1024_S8x4096x2048_d2 : Shape.Concatenates [S8x4096x1024, S8x4096x1024] S8x4096x2048 2
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []
  dot_S8x64x1024_S1024x1024_S8x64x1024_2_1_01_0_n_n_wf : DotDims.WF S8x64x1024 S1024x1024 S8x64x1024 [2] [1] [0, 1] [0] [] []
  dot_S8x4096x1024_S8x64x1024_S8x4096x64_2_2_1_1_0_0_wf : DotDims.WF S8x4096x1024 S8x64x1024 S8x4096x64 [2] [2] [1] [1] [0] [0]
  dot_S8x4096x64_S8x64x1024_S8x4096x1024_2_1_1_2_0_0_wf : DotDims.WF S8x4096x64 S8x64x1024 S8x4096x1024 [2] [1] [1] [2] [0] [0]
  dot_S8x4096x2048_S1x2048_S8x4096x1_2_1_01_0_n_n_wf : DotDims.WF S8x4096x2048 S1x2048 S8x4096x1 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x64x1024_S1024x1024_S8x64x1024_2_1_01_0_n_n : DotDims S8x64x1024 S1024x1024 S8x64x1024 where
  lhsContracting := [2]
  rhsContracting := [1]
  lhsNonContracting := [0, 1]
  rhsNonContracting := [0]
  lhsBatch := []
  rhsBatch := []
  wf := dot_S8x64x1024_S1024x1024_S8x64x1024_2_1_01_0_n_n_wf
def dot_S8x4096x1024_S8x64x1024_S8x4096x64_2_2_1_1_0_0 : DotDims S8x4096x1024 S8x64x1024 S8x4096x64 where
  lhsContracting := [2]
  rhsContracting := [2]
  lhsNonContracting := [1]
  rhsNonContracting := [1]
  lhsBatch := [0]
  rhsBatch := [0]
  wf := dot_S8x4096x1024_S8x64x1024_S8x4096x64_2_2_1_1_0_0_wf
def dot_S8x4096x64_S8x64x1024_S8x4096x1024_2_1_1_2_0_0 : DotDims S8x4096x64 S8x64x1024 S8x4096x1024 where
  lhsContracting := [2]
  rhsContracting := [1]
  lhsNonContracting := [1]
  rhsNonContracting := [2]
  lhsBatch := [0]
  rhsBatch := [0]
  wf := dot_S8x4096x64_S8x64x1024_S8x4096x1024_2_1_1_2_0_0_wf
def dot_S8x4096x2048_S1x2048_S8x4096x1_2_1_01_0_n_n : DotDims S8x4096x2048 S1x2048 S8x4096x1 where
  lhsContracting := [2]
  rhsContracting := [1]
  lhsNonContracting := [0, 1]
  rhsNonContracting := [0]
  lhsBatch := []
  rhsBatch := []
  wf := dot_S8x4096x2048_S1x2048_S8x4096x1_2_1_01_0_n_n_wf

class Facts : Prop extends Facts₀ where

variable [Facts]
-- ==== Proof.AttnSpec.lean ====
/-
  One query row of cross-attention against a batch's 64 keys and values, with a sigmoid-gated residual, on the
  extended reals.

  For a row `p` of 1024 features: the query `q = p·Wqᵀ + bq`; the 64 scores `q·K l`; their softmax (the row maximum
  subtracted first, starting from the word of `-∞`); the mixture `out = Σ_l w l · V l + p`; the gate
  `g = logistic (out·wa + p·wb + bg)`; the result `g·out + (1 - g)·p`.  The values `V` arrive already multiplied by
  a scale `c`: dividing each softmax weight by a number whose reciprocal is `c` and then mixing unscaled values is
  the same sum, because multiplication of extended reals is commutative and associative (`mix_div_eq_mix_scaled`).
  A 2048-term product sum against the two halves of one weight row splits into the two 1024-term sums
  (`sum_two_halves`), by commutativity and associativity of addition alone: nothing here needs a finite input.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The words both programs spell, read at the ideal instance and left unevaluated where both sides carry the same one. -/
abbrev negInfW : EReal := Ideal.ofBits .f32 0xFF800000#32
abbrev oneW : EReal := Ideal.ofBits .f32 0x3F800000#32
abbrev scaleW : EReal := Ideal.ofBits .f32 0x3D000000#32
abbrev dimW : EReal := Ideal.ofBits .f32 0x44800000#32

/-- A linear layer at output feature `o` of one input row: `Σ_i row i · W o i + b o`. -/
def linRow (row : Fin 1024 → EReal) (W : Fin 1024 → Fin 1024 → EReal) (b : Fin 1024 → EReal) (o : Fin 1024) : EReal :=
  (∑ i, row i * W o i) + b o

/-- The score of a query against key `l`. -/
def scoreRow (q : Fin 1024 → EReal) (K : Fin 64 → Fin 1024 → EReal) (l : Fin 64) : EReal := ∑ h, q h * K l h

/-- The row maximum the softmax subtracts: the fold of `max` over the 64 scores from `-∞`'s word, met once more with it. -/
def rowMax (sc : Fin 64 → EReal) : EReal := max negInfW ((Finset.univ : Finset (Fin 64)).fold max negInfW sc)

/-- The softmax weight of key `l`. -/
def softmaxRow (sc : Fin 64 → EReal) (l : Fin 64) : EReal :=
  Ideal.div (Ideal.exp (sc l - rowMax sc)) (∑ l', Ideal.exp (sc l' - rowMax sc))

/-- The weights' mixture of the values plus the residual row, at feature `h`. -/
def mixRow (w : Fin 64 → EReal) (V : Fin 64 → Fin 1024 → EReal) (p : Fin 1024 → EReal) (h : Fin 1024) : EReal :=
  (∑ l, w l * V l h) + p h

/-- The gate: the logistic of the two 1024-term product sums and the bias. -/
def gateOf (out p wa wb : Fin 1024 → EReal) (bg : EReal) : EReal :=
  Ideal.logistic (((∑ h, out h * wa h) + (∑ h, p h * wb h)) + bg)

/-- The gated blend at feature `h`. -/
def blend (g : EReal) (out p : Fin 1024 → EReal) (h : Fin 1024) : EReal := g * out h + (oneW - g) * p h

/-- The whole row. -/
def attnRow (p : Fin 1024 → EReal) (K V : Fin 64 → Fin 1024 → EReal) (Wq : Fin 1024 → Fin 1024 → EReal) (bq wa wb : Fin 1024 → EReal)
    (bg : EReal) : Fin 1024 → EReal :=
  blend (gateOf (mixRow (softmaxRow (scoreRow (linRow p Wq bq) K)) V p) p wa wb bg) (mixRow (softmaxRow (scoreRow (linRow p Wq bq) K)) V p) p

/-! ## The arrays -/

/-- The keys, one linear layer of `x`: entry `(b, l, h)`. -/
def keyArr (x : (⟨3, ![8, 64, 1024]⟩ : Shape).Idx → EReal) (Wk : (⟨2, ![1024, 1024]⟩ : Shape).Idx → EReal)
    (bk : (⟨1, ![1024]⟩ : Shape).Idx → EReal) : (⟨3, ![8, 64, 1024]⟩ : Shape).Idx → EReal :=
  fun i => linRow (fun k => x (ix3 (i 0) (i 1) k)) (fun o k => Wk (ix2 o k)) (fun o => bk (ix1 o)) (i 2)

/-- The values, the same layer times the scale's word. -/
def valArr (x : (⟨3, ![8, 64, 1024]⟩ : Shape).Idx → EReal) (Wv : (⟨2, ![1024, 1024]⟩ : Shape).Idx → EReal)
    (bv : (⟨1, ![1024]⟩ : Shape).Idx → EReal) : (⟨3, ![8, 64, 1024]⟩ : Shape).Idx → EReal :=
  fun i => linRow (fun k => x (ix3 (i 0) (i 1) k)) (fun o k => Wv (ix2 o k)) (fun o => bv (ix1 o)) (i 2) * scaleW

/-- The first and the second half of the gate's weight row. -/
def gateLo (Wg : (⟨2, ![1, 2048]⟩ : Shape).Idx → EReal) (h : Fin 1024) : EReal := Wg (ix2 (0 : Fin 1) ⟨h.val, by omega⟩)
def gateHi (Wg : (⟨2, ![1, 2048]⟩ : Shape).Idx → EReal) (h : Fin 1024) : EReal := Wg (ix2 (0 : Fin 1) ⟨1024 + h.val, by omega⟩)

/-- The result array from the query rows `p`, key and value arrays `K`, `V`, and the weights: entry `(b, s, h)`. -/
def outArr (p : (⟨3, ![8, 4096, 1024]⟩ : Shape).Idx → EReal) (K V : (⟨3, ![8, 64, 1024]⟩ : Shape).Idx → EReal)
    (Wq : (⟨2, ![1024, 1024]⟩ : Shape).Idx → EReal) (bq : (⟨1, ![1024]⟩ : Shape).Idx → EReal)
    (Wg : (⟨2, ![1, 2048]⟩ : Shape).Idx → EReal) (bg : (⟨1, ![1]⟩ : Shape).Idx → EReal) : (⟨3, ![8, 4096, 1024]⟩ : Shape).Idx → EReal :=
  fun i => attnRow (fun k => p (ix3 (i 0) (i 1) k)) (fun l h => K (ix3 (i 0) l h)) (fun l h => V (ix3 (i 0) l h))
    (fun o k => Wq (ix2 o k)) (fun o => bq (ix1 o)) (gateLo Wg) (gateHi Wg) (bg (ix1 (0 : Fin 1))) (i 2)

/-! ## The two laws -/

/-- Dividing every weight by `S`, when that is multiplying by `c`, and mixing `V` is mixing the weights with `V · c`. -/
theorem mix_div_eq_mix_scaled (S c : EReal) (hS : ∀ a : EReal, Ideal.div a S = a * c) (w : Fin 64 → EReal)
    (V : Fin 64 → Fin 1024 → EReal) (p : Fin 1024 → EReal) (h : Fin 1024) :
    mixRow (fun l => Ideal.div (w l) S) V p h = mixRow w (fun l h => V l h * c) p h := by
  unfold mixRow
  refine congrArg (· + p h) (Finset.sum_congr rfl fun l _ => ?_)
  show Ideal.div (w l) S * V l h = w l * (V l h * c)
  rw [hS, mul_assoc, mul_comm c]

/-- A sum over 2048 indices is the sum over the first 1024 plus the sum over the last 1024. -/
theorem sum_two_halves (f : Fin 2048 → EReal) :
    ∑ j, f j = (∑ h : Fin 1024, f ⟨h.val, by omega⟩) + ∑ h : Fin 1024, f ⟨1024 + h.val, by omega⟩ := by
  exact Fin.sum_univ_add (a := 1024) (b := 1024) f

end Cert.Attn

end
-- ==== Proof.AttnConsts.lean ====
/-
  The float words the two programs spell that the bridge has to evaluate, as the extended reals they denote:
  `1.0` is `1`, `0.03125` is `1/32`, `1024.0` is `1024`, whose square root is `32`; so dividing by that root is
  multiplying by the word of `0.03125`, and `1 / (1 + e^(-x))` spelled with the word of `1.0` is the logistic function.
-/
import Idealize.ShloMosaic.PureOps.Ideal

noncomputable section

namespace Cert.Attn

open Idealize.ShloMosaic

theorem ofBits_one : Ideal.ofBits .f32 0x3F800000#32 = 1 := by
  simp [Ideal.ofBits, Ideal.ieee, -EReal.coe_mul]; norm_num

theorem ofBits_scale : Ideal.ofBits .f32 0x3D000000#32 = ((1 / 32 : ℝ) : EReal) := by
  simp [Ideal.ofBits, Ideal.ieee, -EReal.coe_mul]; norm_num

theorem ofBits_dim : Ideal.ofBits .f32 0x44800000#32 = ((1024 : ℝ) : EReal) := by
  simp [Ideal.ofBits, Ideal.ieee, -EReal.coe_mul]; norm_num

/-- The square root of the word of `1024.0` is `32`. -/
theorem sqrt_dim : Ideal.sqrt (Ideal.ofBits .f32 0x44800000#32) = ((32 : ℝ) : EReal) := by
  rw [ofBits_dim, Ideal.sqrt_coe, if_neg (by norm_num)]
  congr 1
  rw [show (1024 : ℝ) = 32 ^ 2 by norm_num]
  exact Real.sqrt_sq (by norm_num)

/-- Dividing by `√1024` is multiplying by the word of `0.03125`, on every extended real. -/
theorem div_sqrt_dim (a : EReal) :
    Ideal.div a (Ideal.sqrt (Ideal.ofBits .f32 0x44800000#32)) = a * Ideal.ofBits .f32 0x3D000000#32 := by
  rw [sqrt_dim, Ideal.div_coe (by norm_num : (32 : ℝ) ≠ 0), ofBits_scale]

/-- `1 / (1 + e^(-x))` with the word of `1.0` for both ones is the logistic function. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.Attn

end
-- ==== Proof.RefValue.lean ====
/-
  The reference, stage by stage, at an entry: its result is the specification's result array of its arguments.
  The reference projects queries, keys and values with one linear layer each, takes the softmax of the scores over the
  64 keys, DIVIDES the weights by `√1024`, mixes the unscaled values and adds the residual, takes the gate as
  `1 / (1 + e^(-z))` of one 2048-term product sum of the concatenation `[out, p]` with the gate's whole weight row plus the
  bias, and blends.  Against the specification: dividing by `√1024 = 32` is multiplying by the word of `0.03125`, which
  moves onto the values because products of extended reals commute and associate; the 2048-term sum splits into the two
  1024-term sums; and `1 / (1 + e^(-z))` is the logistic function.
-/
import proofs.«139963_j36558761624275_2_alg».proof.Proof.RefReadP
import proofs.«139963_j36558761624275_2_alg».proof.Proof.AttnSpec
import proofs.«139963_j36558761624275_2_alg».proof.Proof.AttnConsts

noncomputable section

namespace Cert.ReferenceIdeal.Hand

open Cert.ReferenceIdeal Cert.ReferenceIdeal.Gen Cert.ReferenceIdeal.ReadP Cert.Attn
open Idealize.ShloMosaic Idealize.ShloMosaic.ValueIdx

/-- Two indices with the same coordinates are equal. -/
macro "idx_ext" : tactic => `(tactic| (funext a; apply Fin.ext; first
  | exact a.elim0
  | (match a with | ⟨0, _⟩ => rfl | ⟨1, _⟩ => rfl | ⟨2, _⟩ => rfl)
  | (match a with | ⟨0, _⟩ => rfl | ⟨1, _⟩ => rfl)
  | (match a with | ⟨0, _⟩ => rfl)))

variable (x0 : S8x4096x1024.Idx → EReal) (x1 : S8x64x1024.Idx → EReal) (x2 : S1024x1024.Idx → EReal) (x3 : S1024.Idx → EReal)
  (x4 : S1024x1024.Idx → EReal) (x5 : S1024.Idx → EReal) (x6 : S1024x1024.Idx → EReal) (x7 : S1024.Idx → EReal)
  (x8 : S1x2048.Idx → EReal) (x9 : S1.Idx → EReal)

/-! ## The three projections -/

theorem query_apply (b : Fin 8) (s : Fin 4096) (o : Fin 1024) :
    val_main_v3 (F := Ideal) x0 x2 x3 (ix3 b s o) = linRow (fun k => x0 (ix3 b s k)) (fun o k => x2 (ix2 o k)) (fun o => x3 (ix1 o)) o := by
  rw [val_main_v3_apply, val_main_v0_apply, val_main_v2_apply, val_main_v1_apply]
  unfold linRow
  show _ + _ = _ + _
  refine congrArg₂ (· + ·) (Finset.sum_congr rfl fun k _ => ?_) (congrArg x3 (by idx_ext))
  rw [show lidx_main_v0 (ix3 b s o) k = ix3 b s k by idx_ext, show ridx_main_v0 (ix3 b s o) k = ix2 o k by idx_ext]

theorem key_apply (b : Fin 8) (l : Fin 64) (h : Fin 1024) :
    val_main_v7 (F := Ideal) x1 x4 x5 (ix3 b l h) = keyArr x1 x4 x5 (ix3 b l h) := by
  rw [val_main_v7_apply, val_main_v4_apply, val_main_v6_apply, val_main_v5_apply]
  unfold keyArr linRow
  show _ + _ = _ + _
  refine congrArg₂ (· + ·) (Finset.sum_congr rfl fun k _ => ?_) (congrArg x5 (by idx_ext))
  rw [show lidx_main_v4 (ix3 b l h) k = ix3 b l k by idx_ext, show ridx_main_v4 (ix3 b l h) k = ix2 h k by idx_ext]

/-- The reference's values, unscaled; times the scale's word they are the specification's value array. -/
theorem value_apply (b : Fin 8) (l : Fin 64) (h : Fin 1024) :
    val_main_v11 (F := Ideal) x1 x6 x7 (ix3 b l h) * scaleW = valArr x1 x6 x7 (ix3 b l h) := by
  rw [val_main_v11_apply, val_main_v8_apply, val_main_v10_apply, val_main_v9_apply]
  unfold valArr linRow
  show (_ + _) * _ = (_ + _) * _
  refine congrArg (· * scaleW) (congrArg₂ (· + ·) (Finset.sum_congr rfl fun k _ => ?_) (congrArg x7 (by idx_ext)))
  rw [show lidx_main_v8 (ix3 b l h) k = ix3 b l k by idx_ext, show ridx_main_v8 (ix3 b l h) k = ix2 h k by idx_ext]

/-! ## The scores and their softmax -/

/-- The scores of query row `(b, s)`. -/
abbrev scoresOf (b : Fin 8) (s : Fin 4096) : Fin 64 → EReal :=
  scoreRow (linRow (fun k => x0 (ix3 b s k)) (fun o k => x2 (ix2 o k)) (fun o => x3 (ix1 o))) (fun l h => keyArr x1 x4 x5 (ix3 b l h))

theorem score_apply (b : Fin 8) (s : Fin 4096) (l : Fin 64) :
    val_main_v12 (F := Ideal) x0 x1 x2 x3 x4 x5 (ix3 b s l) = scoresOf x0 x1 x2 x3 x4 x5 b s l := by
  rw [val_main_v12_apply]
  unfold scoresOf scoreRow
  refine Finset.sum_congr rfl fun k _ => ?_
  rw [show lidx_main_v12 (ix3 b s l) k = ix3 b s k by idx_ext, show ridx_main_v12 (ix3 b s l) k = ix3 b l k by idx_ext,
    query_apply, key_apply]

theorem max_apply (b : Fin 8) (s : Fin 4096) :
    val_main_v15 (F := Ideal) x0 x1 x2 x3 x4 x5 (ix2 b s) = rowMax (scoresOf x0 x1 x2 x3 x4 x5 b s) := by
  rw [val_main_v15_apply, val_main_v14_apply]
  unfold val_main_v13
  rw [Host.reduce_eq_fold_single FloatOps.maximumf _ _ reducesTo_S8x4096x64_S8x4096_d2 (by decide : S8x4096x64.Reduces [2] S8x4096) h_S_ (ix2 b s)]
  unfold rowMax
  have e : (val_main_v12 (F := Ideal) x0 x1 x2 x3 x4 x5 ∘ (by decide : S8x4096x64.Reduces [2] S8x4096).lift (ix2 b s)) = scoresOf x0 x1 x2 x3 x4 x5 b s :=
    funext fun l => (congrArg (val_main_v12 (F := Ideal) x0 x1 x2 x3 x4 x5) (show _ = ix3 b s l by idx_ext)).trans (score_apply x0 x1 x2 x3 x4 x5 b s l)
  rw [e]
  rfl

theorem exp_apply (b : Fin 8) (s : Fin 4096) (l : Fin 64) :
    val_main_v19 (F := Ideal) x0 x1 x2 x3 x4 x5 (ix3 b s l)
      = Ideal.exp (scoresOf x0 x1 x2 x3 x4 x5 b s l - rowMax (scoresOf x0 x1 x2 x3 x4 x5 b s)) := by
  rw [val_main_v19_apply, val_main_v18_apply, val_main_v17_apply, val_main_v16_apply, score_apply,
    show idx_main_v16 (idx_main_v17 (ix3 b s l)) = ix2 b s by idx_ext, max_apply]
  rfl

theorem softmax_apply (b : Fin 8) (s : Fin 4096) (l : Fin 64) :
    val_main_v23 (F := Ideal) x0 x1 x2 x3 x4 x5 (ix3 b s l) = softmaxRow (scoresOf x0 x1 x2 x3 x4 x5 b s) l := by
  rw [val_main_v23_apply, val_main_v22_apply, val_main_v21_apply, show idx_main_v21 (idx_main_v22 (ix3 b s l)) = ix2 b s by idx_ext,
    val_main_v20_apply, exp_apply]
  unfold softmaxRow
  show Ideal.div _ (Ideal.ofBits .f32 0x00000000#32 + _) = _
  rw [Ideal.ofBits_zero_f32, zero_add]
  refine congrArg (Ideal.div _) (Finset.sum_congr rfl fun l' _ => ?_)
  rw [show idx_main_v20 (ix2 b s) l' = ix3 b s l' by idx_ext, exp_apply]

/-! ## The mixture -/

/-- The reference's `out` row is the specification's mixture of the scaled values. -/
theorem mix_apply (b : Fin 8) (s : Fin 4096) (h : Fin 1024) :
    val_main_v28 (F := Ideal) x0 x1 x2 x3 x4 x5 x6 x7 (ix3 b s h)
      = mixRow (softmaxRow (scoresOf x0 x1 x2 x3 x4 x5 b s)) (fun l h => valArr x1 x6 x7 (ix3 b l h)) (fun k => x0 (ix3 b s k)) h := by
  rw [val_main_v28_apply, val_main_v27_apply]
  have e : mixRow (fun l => Ideal.div (softmaxRow (scoresOf x0 x1 x2 x3 x4 x5 b s) l) (Ideal.sqrt dimW))
      (fun l h => val_main_v11 (F := Ideal) x1 x6 x7 (ix3 b l h)) (fun k => x0 (ix3 b s k)) h
      = mixRow (softmaxRow (scoresOf x0 x1 x2 x3 x4 x5 b s)) (fun l h => valArr x1 x6 x7 (ix3 b l h)) (fun k => x0 (ix3 b s k)) h := by
    rw [mix_div_eq_mix_scaled (Ideal.sqrt dimW) scaleW div_sqrt_dim]
    exact congrArg (fun V => mixRow (softmaxRow (scoresOf x0 x1 x2 x3 x4 x5 b s)) V (fun k => x0 (ix3 b s k)) h)
      (funext fun l => funext fun h' => value_apply x1 x6 x7 b l h')
  rw [← e]
  unfold mixRow
  show _ + _ = _ + _
  refine congrArg (· + x0 (ix3 b s h)) (Finset.sum_congr rfl fun l _ => ?_)
  rw [show lidx_main_v27 (ix3 b s h) l = ix3 b s l by idx_ext, show ridx_main_v27 (ix3 b s h) l = ix3 b l h by idx_ext,
    val_main_v26_apply, softmax_apply, val_main_v25_apply]
  rfl

/-! ## The gate -/

/-- The concatenation `[out, p]` along the features: the first 1024 entries are `out`'s, the last 1024 are `p`'s. -/
theorem concat_lo (b : Fin 8) (s : Fin 4096) (h : Fin 1024) :
    val_main_v29 (F := Ideal) x0 x1 x2 x3 x4 x5 x6 x7 (ix3 b s (⟨h.val, by omega⟩ : Fin 2048)) = val_main_v28 (F := Ideal) x0 x1 x2 x3 x4 x5 x6 x7 (ix3 b s h) := by
  unfold val_main_v29
  refine concatenate_pair_apply_left (t := S8x4096x2048) (s₁ := S8x4096x1024) (s₂ := S8x4096x1024) _ _ _ _ _ rfl (ix3 b s h) fun a => ?_
  match a with
  | ⟨0, _⟩ => rfl
  | ⟨1, _⟩ => rfl
  | ⟨2, _⟩ => rfl
theorem concat_hi (b : Fin 8) (s : Fin 4096) (h : Fin 1024) :
    val_main_v29 (F := Ideal) x0 x1 x2 x3 x4 x5 x6 x7 (ix3 b s (⟨1024 + h.val, by omega⟩ : Fin 2048)) = x0 (ix3 b s h) := by
  unfold val_main_v29
  refine concatenate_pair_apply_right (t := S8x4096x2048) (s₁ := S8x4096x1024) (s₂ := S8x4096x1024) _ _ _ _ _ rfl rfl (ix3 b s h) (fun a ha => ?_) ?_
  · match a with
    | ⟨0, _⟩ => rfl
    | ⟨1, _⟩ => rfl
    | ⟨2, _⟩ => exact absurd rfl ha
  · show h.val + 1024 = 1024 + h.val
    omega

/-- The gate of query row `(b, s)`. -/
theorem gate_apply (b : Fin 8) (s : Fin 4096) :
    val_main_v39 (F := Ideal) x0 x1 x2 x3 x4 x5 x6 x7 x8 x9 (ix3 b s (0 : Fin 1))
      = gateOf (mixRow (softmaxRow (scoresOf x0 x1 x2 x3 x4 x5 b s)) (fun l h => valArr x1 x6 x7 (ix3 b l h)) (fun k => x0 (ix3 b s k)))
          (fun k => x0 (ix3 b s k)) (gateLo x8) (gateHi x8) (x9 (ix1 (0 : Fin 1))) := by
  rw [val_main_v39_apply, val_main_v38_apply, val_main_v37_apply, val_main_v36_apply, val_main_v35_apply, val_main_v34_apply,
    val_main_v33_apply, val_main_v32_apply, val_main_v31_apply, val_main_v30_apply, sum_two_halves]
  unfold gateOf
  show Ideal.div (Ideal.ofBits .f32 0x3F800000#32) (Ideal.ofBits .f32 0x3F800000#32 + Ideal.exp (-(_ + _))) = _
  rw [div_one_add_exp_neg]
  refine congrArg Ideal.logistic (congrArg₂ (· + ·) (congrArg₂ (· + ·) (Finset.sum_congr rfl fun h _ => ?_) (Finset.sum_congr rfl fun h _ => ?_))
    (congrArg x9 (by idx_ext)))
  · rw [show lidx_main_v30 (ix3 b s (0 : Fin 1)) ⟨h.val, by omega⟩ = ix3 b s (⟨h.val, by omega⟩ : Fin 2048) by idx_ext, concat_lo, mix_apply]
    exact congrArg _ (congrArg x8 (by idx_ext))
  · rw [show lidx_main_v30 (ix3 b s (0 : Fin 1)) ⟨1024 + h.val, by omega⟩ = ix3 b s (⟨1024 + h.val, by omega⟩ : Fin 2048) by idx_ext, concat_hi]
    exact congrArg _ (congrArg x8 (by idx_ext))

/-! ## The result -/

/-- The reference's result array is the specification's result array of its arguments. -/
theorem result_eq :
    val_main_v46 (F := Ideal) x0 x1 x2 x3 x4 x5 x6 x7 x8 x9 = outArr x0 (keyArr x1 x4 x5) (valArr x1 x6 x7) x2 x3 x8 x9 := by
  funext i
  obtain ⟨b, s, h, rfl⟩ : ∃ (b : Fin 8) (s : Fin 4096) (h : Fin 1024), i = ix3 b s h := ⟨i 0, i 1, i 2, eq_ix3 i⟩
  rw [val_main_v46_apply, val_main_v41_apply, val_main_v45_apply, val_main_v40_apply, val_main_v44_apply, val_main_v43_apply,
    val_main_v42_apply, show idx_main_v40 (ix3 b s h) = ix3 b s (0 : Fin 1) by idx_ext,
    show idx_main_v44 (ix3 b s h) = ix3 b s (0 : Fin 1) by idx_ext, gate_apply, mix_apply]
  rfl

end Cert.ReferenceIdeal.Hand

end
-- ==== Proof.KernelDots.lean ====
/-
  The kernel's four matrix products at the ideal values, each read at an output entry as a plain sum of products over
  the contracted axis: the accumulator is the zero array, so nothing is added to the sum.
  Three are rows times columns, `(A·B)(r, c) = Σ_k A(r, k) · B(k, c)`; the scores' product contracts the feature axis of
  both operands, `(Q·Kᵀ)(r, c) = Σ_k Q(r, k) · K(c, k)`.
-/
import proofs.«139963_j36558761624275_2_alg».proof.Proof.Gen.KernelIdeal
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The key and value projections: 64 rows of 1024 features times a 1024 by 1024 matrix. -/
theorem projDot_apply (lhs : FVec Ideal S64x1024 .bf16) (rhs : FVec Ideal S1024x1024 .bf16) (r : Fin 64) (c : Fin 1024) :
    matmul dot_S64x1024_S1024x1024_S64x1024_1_0_0_1_n_n none lhs rhs (constant (F := Ideal) S64x1024 .f32 0x00000000#32) (ix2 r c)
      = ∑ k : Fin 1024, lhs (ix2 r k) * rhs (ix2 k c) := by
  have l0 : ∀ q : dot_S64x1024_S1024x1024_S64x1024_1_0_0_1_n_n.contr.Idx, (dot_S64x1024_S1024x1024_S64x1024_1_0_0_1_n_n.lhsIdx (ix2 r c) q 0).val = r.val := fun q => by
    unfold DotDims.lhsIdx
    rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
    rfl
  have l1 : ∀ q : dot_S64x1024_S1024x1024_S64x1024_1_0_0_1_n_n.contr.Idx, (dot_S64x1024_S1024x1024_S64x1024_1_0_0_1_n_n.lhsIdx (ix2 r c) q 1).val = (q ⟨0, by decide⟩).val := fun q =>
    dot_S64x1024_S1024x1024_S64x1024_1_0_0_1_n_n.lhsIdx_val_of_single rfl _ q
  have r0 : ∀ q : dot_S64x1024_S1024x1024_S64x1024_1_0_0_1_n_n.contr.Idx, (dot_S64x1024_S1024x1024_S64x1024_1_0_0_1_n_n.rhsIdx (ix2 r c) q 1).val = c.val := fun q => by
    unfold DotDims.rhsIdx
    rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
    rfl
  have r1 : ∀ q : dot_S64x1024_S1024x1024_S64x1024_1_0_0_1_n_n.contr.Idx, (dot_S64x1024_S1024x1024_S64x1024_1_0_0_1_n_n.rhsIdx (ix2 r c) q 0).val = (q ⟨0, by decide⟩).val := fun q =>
    dot_S64x1024_S1024x1024_S64x1024_1_0_0_1_n_n.rhsIdx_val_of_single rfl _ q
  simp only [matmul]
  rw [Ideal.matmul_constant_zero_apply, ← Equiv.sum_comp (contrEquiv1 dot_S64x1024_S1024x1024_S64x1024_1_0_0_1_n_n 1024 rfl rfl).symm]
  refine Finset.sum_congr rfl fun k _ => ?_
  have hk := contrEquiv1_symm_val dot_S64x1024_S1024x1024_S64x1024_1_0_0_1_n_n 1024 rfl rfl k
  have el : dot_S64x1024_S1024x1024_S64x1024_1_0_0_1_n_n.lhsIdx (ix2 r c) ((contrEquiv1 dot_S64x1024_S1024x1024_S64x1024_1_0_0_1_n_n 1024 rfl rfl).symm k) = ix2 r k := funext fun a => Fin.ext (by
    match a with
    | ⟨0, _⟩ => exact l0 _
    | ⟨1, _⟩ => exact (l1 _).trans hk)
  have er : dot_S64x1024_S1024x1024_S64x1024_1_0_0_1_n_n.rhsIdx (ix2 r c) ((contrEquiv1 dot_S64x1024_S1024x1024_S64x1024_1_0_0_1_n_n 1024 rfl rfl).symm k) = ix2 k c := funext fun a => Fin.ext (by
    match a with
    | ⟨1, _⟩ => exact r0 _
    | ⟨0, _⟩ => exact (r1 _).trans hk)
  rw [el, er]

/-- The query projection: 2048 rows times a 1024 by 1024 matrix. -/
theorem queryDot_apply (lhs : FVec Ideal S2048x1024 .bf16) (rhs : FVec Ideal S1024x1024 .bf16) (r : Fin 2048) (c : Fin 1024) :
    matmul dot_S2048x1024_S1024x1024_S2048x1024_1_0_0_1_n_n none lhs rhs (constant (F := Ideal) S2048x1024 .f32 0x00000000#32) (ix2 r c)
      = ∑ k : Fin 1024, lhs (ix2 r k) * rhs (ix2 k c) := by
  have l0 : ∀ q : dot_S2048x1024_S1024x1024_S2048x1024_1_0_0_1_n_n.contr.Idx, (dot_S2048x1024_S1024x1024_S2048x1024_1_0_0_1_n_n.lhsIdx (ix2 r c) q 0).val = r.val := fun q => by
    unfold DotDims.lhsIdx
    rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
    rfl
  have l1 : ∀ q : dot_S2048x1024_S1024x1024_S2048x1024_1_0_0_1_n_n.contr.Idx, (dot_S2048x1024_S1024x1024_S2048x1024_1_0_0_1_n_n.lhsIdx (ix2 r c) q 1).val = (q ⟨0, by decide⟩).val := fun q =>
    dot_S2048x1024_S1024x1024_S2048x1024_1_0_0_1_n_n.lhsIdx_val_of_single rfl _ q
  have r0 : ∀ q : dot_S2048x1024_S1024x1024_S2048x1024_1_0_0_1_n_n.contr.Idx, (dot_S2048x1024_S1024x1024_S2048x1024_1_0_0_1_n_n.rhsIdx (ix2 r c) q 1).val = c.val := fun q => by
    unfold DotDims.rhsIdx
    rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
    rfl
  have r1 : ∀ q : dot_S2048x1024_S1024x1024_S2048x1024_1_0_0_1_n_n.contr.Idx, (dot_S2048x1024_S1024x1024_S2048x1024_1_0_0_1_n_n.rhsIdx (ix2 r c) q 0).val = (q ⟨0, by decide⟩).val := fun q =>
    dot_S2048x1024_S1024x1024_S2048x1024_1_0_0_1_n_n.rhsIdx_val_of_single rfl _ q
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r c) ((contrEquiv1 dot_S2048x1024_S1024x1024_S2048x1024_1_0_0_1_n_n 1024 rfl rfl).symm k) = ix2 r k := funext fun a => Fin.ext (by
    match a with
    | ⟨0, _⟩ => exact l0 _
    | ⟨1, _⟩ => exact (l1 _).trans hk)
  have er : dot_S2048x1024_S1024x1024_S2048x1024_1_0_0_1_n_n.rhsIdx (ix2 r c) ((contrEquiv1 dot_S2048x1024_S1024x1024_S2048x1024_1_0_0_1_n_n 1024 rfl rfl).symm k) = ix2 k c := funext fun a => Fin.ext (by
    match a with
    | ⟨1, _⟩ => exact r0 _
    | ⟨0, _⟩ => exact (r1 _).trans hk)
  rw [el, er]

/-- The scores: each of 2048 queries against each of 64 keys, both read along their 1024 features. -/
theorem scoreDot_apply (lhs : FVec Ideal S2048x1024 .bf16) (rhs : FVec Ideal S64x1024 .bf16) (r : Fin 2048) (c : Fin 64) :
    matmul dot_S2048x1024_S64x1024_S2048x64_1_1_0_0_n_n none lhs rhs (constant (F := Ideal) S2048x64 .f32 0x00000000#32) (ix2 r c)
      = ∑ k : Fin 1024, lhs (ix2 r k) * rhs (ix2 c k) := by
  have l0 : ∀ q : dot_S2048x1024_S64x1024_S2048x64_1_1_0_0_n_n.contr.Idx, (dot_S2048x1024_S64x1024_S2048x64_1_1_0_0_n_n.lhsIdx (ix2 r c) q 0).val = r.val := fun q => by
    unfold DotDims.lhsIdx
    rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
    rfl
  have l1 : ∀ q : dot_S2048x1024_S64x1024_S2048x64_1_1_0_0_n_n.contr.Idx, (dot_S2048x1024_S64x1024_S2048x64_1_1_0_0_n_n.lhsIdx (ix2 r c) q 1).val = (q ⟨0, by decide⟩).val := fun q =>
    dot_S2048x1024_S64x1024_S2048x64_1_1_0_0_n_n.lhsIdx_val_of_single rfl _ q
  have r0 : ∀ q : dot_S2048x1024_S64x1024_S2048x64_1_1_0_0_n_n.contr.Idx, (dot_S2048x1024_S64x1024_S2048x64_1_1_0_0_n_n.rhsIdx (ix2 r c) q 0).val = c.val := fun q => by
    unfold DotDims.rhsIdx
    rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
    rfl
  have r1 : ∀ q : dot_S2048x1024_S64x1024_S2048x64_1_1_0_0_n_n.contr.Idx, (dot_S2048x1024_S64x1024_S2048x64_1_1_0_0_n_n.rhsIdx (ix2 r c) q 1).val = (q ⟨0, by decide⟩).val := fun q =>
    dot_S2048x1024_S64x1024_S2048x64_1_1_0_0_n_n.rhsIdx_val_of_single rfl _ q
  simp only [matmul]
  rw [Ideal.matmul_constant_zero_apply, ← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 r c) ((contrEquiv1 dot_S2048x1024_S64x1024_S2048x64_1_1_0_0_n_n 1024 rfl rfl).symm k) = ix2 r k := funext fun a => Fin.ext (by
    match a with
    | ⟨0, _⟩ => exact l0 _
    | ⟨1, _⟩ => exact (l1 _).trans hk)
  have er : dot_S2048x1024_S64x1024_S2048x64_1_1_0_0_n_n.rhsIdx (ix2 r c) ((contrEquiv1 dot_S2048x1024_S64x1024_S2048x64_1_1_0_0_n_n 1024 rfl rfl).symm k) = ix2 c k := funext fun a => Fin.ext (by
    match a with
    | ⟨0, _⟩ => exact r0 _
    | ⟨1, _⟩ => exact (r1 _).trans hk)
  rw [el, er]

/-- The mixture: 2048 rows of 64 weights times the 64 by 1024 values. -/
theorem mixDot_apply (lhs : FVec Ideal S2048x64 .bf16) (rhs : FVec Ideal S64x1024 .bf16) (r : Fin 2048) (c : Fin 1024) :
    matmul dot_S2048x64_S64x1024_S2048x1024_1_0_0_1_n_n none lhs rhs (constant (F := Ideal) S2048x1024 .f32 0x00000000#32) (ix2 r c)
      = ∑ k : Fin 64, lhs (ix2 r k) * rhs (ix2 k c) := by
  have l0 : ∀ q : dot_S2048x64_S64x1024_S2048x1024_1_0_0_1_n_n.contr.Idx, (dot_S2048x64_S64x1024_S2048x1024_1_0_0_1_n_n.lhsIdx (ix2 r c) q 0).val = r.val := fun q => by
    unfold DotDims.lhsIdx
    rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
    rfl
  have l1 : ∀ q : dot_S2048x64_S64x1024_S2048x1024_1_0_0_1_n_n.contr.Idx, (dot_S2048x64_S64x1024_S2048x1024_1_0_0_1_n_n.lhsIdx (ix2 r c) q 1).val = (q ⟨0, by decide⟩).val := fun q =>
    dot_S2048x64_S64x1024_S2048x1024_1_0_0_1_n_n.lhsIdx_val_of_single rfl _ q
  have r0 : ∀ q : dot_S2048x64_S64x1024_S2048x1024_1_0_0_1_n_n.contr.Idx, (dot_S2048x64_S64x1024_S2048x1024_1_0_0_1_n_n.rhsIdx (ix2 r c) q 1).val = c.val := fun q => by
    unfold DotDims.rhsIdx
    rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
    rfl
  have r1 : ∀ q : dot_S2048x64_S64x1024_S2048x1024_1_0_0_1_n_n.contr.Idx, (dot_S2048x64_S64x1024_S2048x1024_1_0_0_1_n_n.rhsIdx (ix2 r c) q 0).val = (q ⟨0, by decide⟩).val := fun q =>
    dot_S2048x64_S64x1024_S2048x1024_1_0_0_1_n_n.rhsIdx_val_of_single rfl _ q
  simp only [matmul]
  rw [Ideal.matmul_constant_zero_apply, ← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 r c) ((contrEquiv1 dot_S2048x64_S64x1024_S2048x1024_1_0_0_1_n_n 64 rfl rfl).symm k) = ix2 r k := funext fun a => Fin.ext (by
    match a with
    | ⟨0, _⟩ => exact l0 _
    | ⟨1, _⟩ => exact (l1 _).trans hk)
  have er : dot_S2048x64_S64x1024_S2048x1024_1_0_0_1_n_n.rhsIdx (ix2 r c) ((contrEquiv1 dot_S2048x64_S64x1024_S2048x1024_1_0_0_1_n_n 64 rfl rfl).symm k) = ix2 k c := funext fun a => Fin.ext (by
    match a with
    | ⟨1, _⟩ => exact r0 _
    | ⟨0, _⟩ => exact (r1 _).trans hk)
  rw [el, er]

end Cert.KernelIdeal.Hand

end
-- ==== Proof.KvPayload.lean ====
/-
  What the key/value kernel stores, entry by entry.  For one batch element the body holds the 64 rows of `x`, the
  transposed weight matrices and the biases; it stores `x·Wkᵀ + bk` as the keys and `(x·Wvᵀ + bv)·c` as the values,
  `c` the word of `0.03125`.  At the ideal values the changes of float format are the identity and each matrix product
  is a plain sum, so entry `(l, h)` is one linear layer's output feature `h` of row `l`.
-/
import proofs.«139963_j36558761624275_2_alg».proof.Proof.Gen.KernelIdeal.Skeleton
import proofs.«139963_j36558761624275_2_alg».proof.Proof.KernelDots
import proofs.«139963_j36558761624275_2_alg».proof.Proof.AttnSpec
import Idealize.ShloMosaic.Lib.ValueLayout
import Idealize.ShloMosaic.Lib.Pipeline.Value

noncomputable section

namespace Cert.KernelIdeal.Hand

open Cert.KernelIdeal Cert.KernelIdeal.Gen Cert.Attn Idealize.ShloMosaic Idealize.ShloMosaic.ValueIdx

/-- The stored keys at `(u, l, h)`: feature `h` of the linear layer of row `l`, the weight matrix read transposed. -/
theorem key_payload (x0 : FVec Ideal S1x64x1024 .f32) (x1 : FVec Ideal S1024x1024 .bf16) (x2 : FVec Ideal S1024 .f32)
    (u : Fin 1) (l : Fin 64) (h : Fin 1024) :
    k0_pay2 (F := Ideal) x0 x1 x2 (ix3 u l h)
      = linRow (fun k => x0 (ix3 (0 : Fin 1) l k)) (fun o k => x1 (ix2 k o)) (fun o => x2 (ix1 o)) h := by
  unfold k0_pay2 k0_pay1 linRow
  rw [shapeCast_ab_1ab_apply]
  show matmul (F := Ideal) _ none _ _ _ (ix2 l h) + broadcastTo S64x1024 _ _ (ix2 l h) = _
  rw [projDot_apply, broadcastTo_1b_ab_apply, shapeCast_a_1a_apply]
  refine congrArg (· + x2 (ix1 h)) (Finset.sum_congr rfl fun k _ => ?_)
  show shapeCast S64x1024 x0 _ (ix2 l k) * shapeCast S1024x1024 x1 _ (ix2 k h) = _
  rw [shapeCast_1ab_ab_apply, shapeCast_self]

/-- The stored values at `(u, l, h)`: the same layer with the value weights, times the scale's word. -/
theorem value_payload (x0 : FVec Ideal S1x64x1024 .f32) (x3 : FVec Ideal S1024x1024 .bf16) (x4 : FVec Ideal S1024 .f32)
    (u : Fin 1) (l : Fin 64) (h : Fin 1024) :
    k0_pay3 (F := Ideal) x0 x3 x4 (ix3 u l h)
      = linRow (fun k => x0 (ix3 (0 : Fin 1) l k)) (fun o k => x3 (ix2 k o)) (fun o => x4 (ix1 o)) h * scaleW := by
  unfold k0_pay3 k0_pay1 linRow
  rw [shapeCast_ab_1ab_apply]
  show (matmul (F := Ideal) _ none _ _ _ (ix2 l h) + broadcastTo S64x1024 _ _ (ix2 l h)) * scaleW = _
  rw [projDot_apply, broadcastTo_1b_ab_apply, shapeCast_a_1a_apply]
  refine congrArg (fun z => (z + x4 (ix1 h)) * scaleW) (Finset.sum_congr rfl fun k _ => ?_)
  show shapeCast S64x1024 x0 _ (ix2 l k) * shapeCast S1024x1024 x3 _ (ix2 k h) = _
  rw [shapeCast_1ab_ab_apply, shapeCast_self]

end Cert.KernelIdeal.Hand

end
-- ==== Proof.KvValue.lean ====
/-
  The first pipeline's two output arrays after its run.  Its grid has one point per batch element `b`; the point reads
  rows `(b, ·, ·)` of `x`, the whole transposed weight matrices (written by the host operations before the pipeline:
  a transpose and a change of float format, the identity at the ideal values) and the biases, and writes back block
  `(b, ·, ·)` of the keys and of the values.  The 8 blocks tile each output array, so the arrays end as the key array and
  the value array of the specification, entry by entry.
-/
import proofs.«139963_j36558761624275_2_alg».proof.Defs
import proofs.«139963_j36558761624275_2_alg».proof.Proof.Gen.KernelIdeal.Frame
import proofs.«139963_j36558761624275_2_alg».proof.Proof.KvPayload
import Idealize.ShloMosaic.Lib.Pipeline.Value
import Idealize.ShloMosaic.Lib.StableHlo.Run
import Idealize.ShloMosaic.Lib.ValueLayout

noncomputable section

namespace Cert.KernelIdeal.Hand

open Cert.KernelIdeal Cert.KernelIdeal.Gen Cert.Attn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What the first pipeline finds in its arrays -/

/-- `x` and the two biases are as launched. -/
theorem entry0_x (c : Dev nD) : (V1 m ρ c main_arg1 : S8x64x1024.Idx → EReal) = m ((c : Thread nD τ).loc main_arg1) := by
  dsimp only [V1, W1, W0, hostOps0]; after_results
theorem entry0_bk (c : Dev nD) : (V1 m ρ c main_arg5 : S1024.Idx → EReal) = m ((c : Thread nD τ).loc main_arg5) := by
  dsimp only [V1, W1, W0, hostOps0]; after_results
theorem entry0_bv (c : Dev nD) : (V1 m ρ c main_arg7 : S1024.Idx → EReal) = m ((c : Thread nD τ).loc main_arg7) := by
  dsimp only [V1, W1, W0, hostOps0]; after_results

/-- The key weights as the pipeline finds them are the launched matrix transposed. -/
theorem entry0_wk (c : Dev nD) (k o : Fin 1024) :
    (V1 m ρ c main_v3 : S1024x1024.Idx → EReal) (ix2 k o) = (m ((c : Thread nD τ).loc main_arg4) : S1024x1024.Idx → EReal) (ix2 o k) := by
  have e : (V1 m ρ c main_v3 : S1024x1024.Idx → EReal)
      = truncf (F := Ideal) .bf16 (transpose S1024x1024 [1, 0] (m ((c : Thread nD τ).loc main_arg4) : S1024x1024.Idx → EReal) transposes_S1024x1024_S1024x1024_1_0) bitsLt_bf16_f32 := by
    dsimp only [V1, W1, W0, hostOps0]; after_results
  rw [e]
  exact transpose_ix2_apply _ _ k o

/-- The value weights likewise. -/
theorem entry0_wv (c : Dev nD) (k o : Fin 1024) :
    (V1 m ρ c main_v5 : S1024x1024.Idx → EReal) (ix2 k o) = (m ((c : Thread nD τ).loc main_arg6) : S1024x1024.Idx → EReal) (ix2 o k) := by
  have e : (V1 m ρ c main_v5 : S1024x1024.Idx → EReal)
      = truncf (F := Ideal) .bf16 (transpose S1024x1024 [1, 0] (m ((c : Thread nD τ).loc main_arg6) : S1024x1024.Idx → EReal) transposes_S1024x1024_S1024x1024_1_0) bitsLt_bf16_f32 := by
    dsimp only [V1, W1, W0, hostOps0]; after_results
  rw [e]
  exact transpose_ix2_apply _ _ k o

/-! ## The blocks -/

/-- The printed index maps over the grid: the row windows sit at block `(t, 0, 0)`, the whole-array windows at the origin. -/
theorem idx0 : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-- Row `l` of the point's `x` block is row `(b, l)` of `x`, `b` the point. -/
theorem xblock_apply (c : Dev nD) (t : Fin cfg0.N) (b : Fin 8) (hb : b.val = t.val) (l : Fin 64) (k : Fin 1024) :
    (iblk0 (V1 m ρ) c 0 t : S1x64x1024.Idx → EReal) (ix3 (0 : Fin 1) l k)
      = (m ((c : Thread nD τ).loc main_arg1) : S8x64x1024.Idx → EReal) (ix3 b l k) := by
  obtain ⟨e0, e1, e2, -⟩ := idx0 t
  unfold iblk0
  rw [View.read_apply]
  show (V1 m ρ c main_arg1 : S8x64x1024.Idx → EReal) _ = _
  rw [entry0_x]
  refine congrArg _ (funext fun a => Fin.ext ?_)
  match a with
  | ⟨0, _⟩ => show win0_0.index t (0 : Fin 3) * 1 + 1 * 0 = b.val; omega
  | ⟨1, _⟩ => show win0_0.index t (1 : Fin 3) * 64 + 1 * l.val = l.val; omega
  | ⟨2, _⟩ => show win0_0.index t (2 : Fin 3) * 1024 + 1 * k.val = k.val; omega

/-- The stored key tile against the key array: when the body's three blocks are rows `(b, ·, ·)` of `X`, the transposed
    weights and the bias, its entry `j` is the key array's entry `(b, j 1, j 2)`. -/
theorem key_tile (x0 : FVec Ideal S1x64x1024 .f32) (x1 : FVec Ideal S1024x1024 .bf16) (x2 : FVec Ideal S1024 .f32)
    (X : S8x64x1024.Idx → EReal) (Wk : S1024x1024.Idx → EReal) (bk : S1024.Idx → EReal) (b : Fin 8)
    (h0 : ∀ (l : Fin 64) (k : Fin 1024), x0 (ix3 (0 : Fin 1) l k) = X (ix3 b l k))
    (h1 : ∀ k o : Fin 1024, x1 (ix2 k o) = Wk (ix2 o k)) (h2 : ∀ o : Fin 1024, x2 (ix1 o) = bk (ix1 o))
    (u : Fin 1) (l : Fin 64) (h : Fin 1024) (i : S8x64x1024.Idx) (hi0 : (i 0).val = b.val + u.val) (hi1 : (i 1).val = l.val)
    (hi2 : (i 2).val = h.val) :
    k0_pay2 (F := Ideal) x0 x1 x2 (ix3 u l h) = keyArr X Wk bk i := by
  have e0 : i 0 = b := Fin.ext (by omega)
  have e1 : i 1 = l := Fin.ext hi1
  have e2 : i 2 = h := Fin.ext hi2
  rw [key_payload]
  unfold keyArr
  rw [e0, e1, e2]
  simp only [h0, h1, h2]

/-- The stored value tile against the value array, likewise. -/
theorem value_tile (x0 : FVec Ideal S1x64x1024 .f32) (x3 : FVec Ideal S1024x1024 .bf16) (x4 : FVec Ideal S1024 .f32)
    (X : S8x64x1024.Idx → EReal) (Wv : S1024x1024.Idx → EReal) (bv : S1024.Idx → EReal) (b : Fin 8)
    (h0 : ∀ (l : Fin 64) (k : Fin 1024), x0 (ix3 (0 : Fin 1) l k) = X (ix3 b l k))
    (h1 : ∀ k o : Fin 1024, x3 (ix2 k o) = Wv (ix2 o k)) (h2 : ∀ o : Fin 1024, x4 (ix1 o) = bv (ix1 o))
    (u : Fin 1) (l : Fin 64) (h : Fin 1024) (i : S8x64x1024.Idx) (hi0 : (i 0).val = b.val + u.val) (hi1 : (i 1).val = l.val)
    (hi2 : (i 2).val = h.val) :
    k0_pay3 (F := Ideal) x0 x3 x4 (ix3 u l h) = valArr X Wv bv i := by
  have e0 : i 0 = b := Fin.ext (by omega)
  have e1 : i 1 = l := Fin.ext hi1
  have e2 : i 2 = h := Fin.ext hi2
  rw [value_payload]
  unfold valArr
  rw [e0, e1, e2]
  simp only [h0, h1, h2]

/-- A whole-array window's block is the array: the transposed weights and the biases at any point. -/
theorem wkblock_apply (c : Dev nD) (t : Fin cfg0.N) (k o : Fin 1024) :
    (iblk0 (V1 m ρ) c 1 t : S1024x1024.Idx → EReal) (ix2 k o) = (m ((c : Thread nD τ).loc main_arg4) : S1024x1024.Idx → EReal) (ix2 o k) := by
  obtain ⟨-, -, -, -, -, -, -, -, -, e0, e1, -⟩ := idx0 t
  unfold iblk0
  rw [View.read_apply]
  show (V1 m ρ c main_v3 : S1024x1024.Idx → EReal) _ = _
  rw [← entry0_wk m ρ c k o]
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * o.val = o.val; omega

theorem wvblock_apply (c : Dev nD) (t : Fin cfg0.N) (k o : Fin 1024) :
    (iblk0 (V1 m ρ) c 3 t : S1024x1024.Idx → EReal) (ix2 k o) = (m ((c : Thread nD τ).loc main_arg6) : S1024x1024.Idx → EReal) (ix2 o k) := by
  obtain ⟨-, -, -, -, -, -, -, -, -, -, -, -, e0, e1, -⟩ := idx0 t
  unfold iblk0
  rw [View.read_apply]
  show (V1 m ρ c main_v5 : S1024x1024.Idx → EReal) _ = _
  rw [← entry0_wv m ρ c k o]
  refine congrArg _ (funext fun a => Fin.ext ?_)
  match a with
  | ⟨0, _⟩ => show win0_3.index t (0 : Fin 2) * 1024 + 1 * k.val = k.val; omega
  | ⟨1, _⟩ => show win0_3.index t (1 : Fin 2) * 1024 + 1 * o.val = o.val; omega

theorem bkblock_apply (c : Dev nD) (t : Fin cfg0.N) (o : Fin 1024) :
    (iblk0 (V1 m ρ) c 2 t : S1024.Idx → EReal) (ix1 o) = (m ((c : Thread nD τ).loc main_arg5) : S1024.Idx → EReal) (ix1 o) := by
  obtain ⟨-, -, -, -, -, -, -, -, -, -, -, e0, -⟩ := idx0 t
  unfold iblk0
  rw [View.read_apply]
  show (V1 m ρ c main_arg5 : S1024.Idx → EReal) _ = _
  rw [entry0_bk]
  refine congrArg _ (funext fun a => Fin.ext ?_)
  match a with
  | ⟨0, _⟩ => show win0_2.index t (0 : Fin 1) * 1024 + 1 * o.val = o.val; omega

theorem bvblock_apply (c : Dev nD) (t : Fin cfg0.N) (o : Fin 1024) :
    (iblk0 (V1 m ρ) c 4 t : S1024.Idx → EReal) (ix1 o) = (m ((c : Thread nD τ).loc main_arg7) : S1024.Idx → EReal) (ix1 o) := by
  obtain ⟨-, -, -, -, -, -, -, -, -, -, -, -, -, -, e0⟩ := idx0 t
  unfold iblk0
  rw [View.read_apply]
  show (V1 m ρ c main_arg7 : S1024.Idx → EReal) _ = _
  rw [entry0_bv]
  refine congrArg _ (funext fun a => Fin.ext ?_)
  match a with
  | ⟨0, _⟩ => show win0_4.index t (0 : Fin 1) * 1024 + 1 * o.val = o.val; omega

/-! ## What each point writes back, and the arrays after the run -/

/-- The point as a batch index. -/
def batchOf (t : Fin cfg0.N) : Fin 8 := ⟨t.val, (show t.val < grid0.N from t.isLt).trans_eq N_0⟩

/-- Point `t` writes back block `t` of the key array. -/
theorem flushed_keys (c : Dev nD) (t : Fin cfg0.N) :
    (dat0 (V1 m ρ) c).flushed 5 t = ((cfg0.win 5).blk t).view.read (Elt Ideal)
      (keyArr (m ((c : Thread nD τ).loc main_arg1)) (m ((c : Thread nD τ).loc main_arg4)) (m ((c : Thread nD τ).loc main_arg5))) := by
  show (cfg0.win 5).cut (grid0.coords t) ((dat0 (V1 m ρ) c).after 5 t) = _
  rw [after0_5]
  unfold out0_5
  rw [View.canon_unit_zero hz3]
  simp only [View.ld_unit_zero (S := S1x64x1024) hz3, View.ld_unit_zero (S := S1024x1024) hz2, View.ld_unit_zero (S := S1024) hz1]
  obtain ⟨-, -, -, e0, e1, e2, -⟩ := idx0 t
  refine funext fun (j : S1x64x1024.Idx) => ?_
  obtain ⟨u, l, h, rfl⟩ : ∃ (u : Fin 1) (l : Fin 64) (h : Fin 1024), j = ix3 u l h := ⟨j 0, j 1, j 2, eq_ix3 j⟩
  refine key_tile _ _ _ _ _ _ (batchOf t) (fun l k => xblock_apply m ρ c t (batchOf t) rfl l k) (fun k o => wkblock_apply m ρ c t k o)
    (fun o => bkblock_apply m ρ c t o) u l h _ ?_ ?_ ?_
  · show win0_5.index t (0 : Fin 3) * 1 + 1 * u.val = t.val + u.val; omega
  · show win0_5.index t (1 : Fin 3) * 64 + 1 * l.val = l.val; omega
  · show win0_5.index t (2 : Fin 3) * 1024 + 1 * h.val = h.val; omega

/-- Point `t` writes back block `t` of the value array. -/
theorem flushed_values (c : Dev nD) (t : Fin cfg0.N) :
    (dat0 (V1 m ρ) c).flushed 6 t = ((cfg0.win 6).blk t).view.read (Elt Ideal)
      (valArr (m ((c : Thread nD τ).loc main_arg1)) (m ((c : Thread nD τ).loc main_arg6)) (m ((c : Thread nD τ).loc main_arg7))) := by
  show (cfg0.win 6).cut (grid0.coords t) ((dat0 (V1 m ρ) c).after 6 t) = _
  rw [after0_6]
  unfold out0_6
  rw [View.canon_unit_zero hz3]
  simp only [View.ld_unit_zero (S := S1x64x1024) hz3, View.ld_unit_zero (S := S1024x1024) hz2, View.ld_unit_zero (S := S1024) hz1]
  obtain ⟨-, -, -, -, -, -, e0, e1, e2, -⟩ := idx0 t
  refine funext fun (j : S1x64x1024.Idx) => ?_
  obtain ⟨u, l, h, rfl⟩ : ∃ (u : Fin 1) (l : Fin 64) (h : Fin 1024), j = ix3 u l h := ⟨j 0, j 1, j 2, eq_ix3 j⟩
  refine value_tile _ _ _ _ _ _ (batchOf t) (fun l k => xblock_apply m ρ c t (batchOf t) rfl l k) (fun k o => wvblock_apply m ρ c t k o)
    (fun o => bvblock_apply m ρ c t o) u l h _ ?_ ?_ ?_
  · show win0_6.index t (0 : Fin 3) * 1 + 1 * u.val = t.val + u.val; omega
  · show win0_6.index t (1 : Fin 3) * 64 + 1 * l.val = l.val; omega
  · show win0_6.index t (2 : Fin 3) * 1024 + 1 * h.val = h.val; omega

/-- Every entry `(b, l, h)` of an output array is in the block of point `b`. -/
theorem keys_cover (i : S8x64x1024.Idx) : ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 1024 := (i 2).isLt
  let t : Fin cfg0.N := ⟨(i 0).val, by rw [show cfg0.N = 8 from N_0]; exact hi0⟩
  obtain ⟨-, -, -, e0, e1, e2, -⟩ := idx0 t
  refine ⟨t, flush0_5 t, ?_⟩
  show i ∈ ((View.whole main_v8_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e0]; show (i 0).val * 1 ≤ (i 0).val ∧ (i 0).val < (i 0).val * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 1024 ≤ (i 2).val ∧ (i 2).val < win0_5.index t (2 : Fin 3) * 1024 + 1024; omega

theorem values_cover (i : S8x64x1024.Idx) : ∃ t : Fin cfg0.N, (cfg0.win 6).flush t = true ∧ i ∈ ((cfg0.win 6).blk t).view.set := by
  have hi0 : (i 0).val < 8 := (i 0).isLt
  have hi1 : (i 1).val < 64 := (i 1).isLt
  have hi2 : (i 2).val < 1024 := (i 2).isLt
  let t : Fin cfg0.N := ⟨(i 0).val, by rw [show cfg0.N = 8 from N_0]; exact hi0⟩
  obtain ⟨-, -, -, -, -, -, e0, e1, e2, -⟩ := idx0 t
  refine ⟨t, flush0_6 t, ?_⟩
  show i ∈ ((View.whole main_v8_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; rw [e0]; show (i 0).val * 1 ≤ (i 0).val ∧ (i 0).val < (i 0).val * 1 + 1; omega
  | ⟨1, _⟩ => show win0_6.index t (1 : Fin 3) * 64 ≤ (i 1).val ∧ (i 1).val < win0_6.index t (1 : Fin 3) * 64 + 64; omega
  | ⟨2, _⟩ => show win0_6.index t (2 : Fin 3) * 1024 ≤ (i 2).val ∧ (i 2).val < win0_6.index t (2 : Fin 3) * 1024 + 1024; omega

/-- After the first pipeline its first output array is the key array of `x`, … -/
theorem final_keys (c : Dev nD) : (dat0 (V1 m ρ) c).arrAt 5 cfg0.N
    = keyArr (m ((c : Thread nD τ).loc main_arg1)) (m ((c : Thread nD τ).loc main_arg4)) (m ((c : Thread nD τ).loc main_arg5)) :=
  (dat0 (V1 m ρ) c).arrAt_eq_of_cover 5 _ (fun t _ => flushed_keys m ρ c t) keys_cover

/-- … and its second the value array. -/
theorem final_values (c : Dev nD) : (dat0 (V1 m ρ) c).arrAt 6 cfg0.N
    = valArr (m ((c : Thread nD τ).loc main_arg1)) (m ((c : Thread nD τ).loc main_arg6)) (m ((c : Thread nD τ).loc main_arg7)) :=
  (dat0 (V1 m ρ) c).arrAt_eq_of_cover 6 _ (fun t _ => flushed_values m ρ c t) values_cover

end Cert.KernelIdeal.Hand

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.AttnStages.lean ====
/-
  What the attention kernel stores, entry by entry.  For one tile of 2048 query rows of one batch element the body
  holds the rows `p`, that batch element's 64 keys and (already scaled) values, the transposed query weights, the
  query bias, the two halves of the gate's weight row and the gate's bias.  The body's arithmetic is named here stage
  by stage (the query, the scores, the row maximum, the exponentials, the softmax weights, the gate's logit) and each
  stage is read at an entry; at the ideal values every change of float format is the identity, every matrix product and
  lane sum a plain sum, and the lane maximum the fold of `max` from the word of `-∞`.  Row `r` of the stored tile is
  then the specification's row function of row `r` of `p`.
-/
import proofs.«139963_j36558761624275_2_alg».proof.Proof.Gen.KernelIdeal.Skeleton
import proofs.«139963_j36558761624275_2_alg».proof.Proof.KernelDots
import proofs.«139963_j36558761624275_2_alg».proof.Proof.AttnSpec
import proofs.«139963_j36558761624275_2_alg».proof.Proof.LibKeepdims
import proofs.«139963_j36558761624275_2_alg».proof.Proof.LibColumnCasts
import Idealize.ShloMosaic.Lib.ValueLayout
import Idealize.ShloMosaic.Lib.Pipeline.Value

noncomputable section

namespace Cert.KernelIdeal.Hand

open Cert.KernelIdeal Cert.KernelIdeal.Gen Cert.Attn Cert.Keepdims Cert.ColumnCasts
open Idealize.ShloMosaic Idealize.ShloMosaic.ValueIdx

/-! ## The stages -/

/-- The rows `p` as a matrix: the leading unit axis dropped. -/
theorem rows_apply (x0 : FVec Ideal S1x2048x1024 .f32) (r : Fin 2048) (k : Fin 1024) :
    k1_pay2 (F := Ideal) x0 (ix2 r k) = x0 (ix3 (0 : Fin 1) r k) := by
  unfold k1_pay2
  exact shapeCast_1ab_ab_apply _ _ r k

/-- The query: the rows times the transposed weights, plus the bias along every row. -/
def queryVec (x0 : FVec Ideal S1x2048x1024 .f32) (x3 : FVec Ideal S1024x1024 .bf16) (x4 : FVec Ideal S1024 .f32) : FVec Ideal S2048x1024 .f32 :=
  addf (matmul dot_S2048x1024_S1024x1024_S2048x1024_1_0_0_1_n_n none (truncf .bf16 (k1_pay2 x0) bitsLt_bf16_f32)
      (shapeCast S1024x1024 x3 shapeCasts_S1024x1024_S1024x1024) (constant S2048x1024 .f32 0x00000000#32))
    (broadcastTo S2048x1024 (shapeCast S1x1024 x4 shapeCasts_S1024_S1x1024) broadcasts_S1x1024_S2048x1024)

theorem queryVec_apply (x0 : FVec Ideal S1x2048x1024 .f32) (x3 : FVec Ideal S1024x1024 .bf16) (x4 : FVec Ideal S1024 .f32)
    (r : Fin 2048) (o : Fin 1024) :
    queryVec x0 x3 x4 (ix2 r o) = linRow (fun k => x0 (ix3 (0 : Fin 1) r k)) (fun o k => x3 (ix2 k o)) (fun o => x4 (ix1 o)) o := by
  unfold queryVec linRow
  rw [addf_apply, queryDot_apply, broadcastTo_1b_ab_apply, shapeCast_a_1a_apply]
  refine congrArg (· + x4 (ix1 o)) (Finset.sum_congr rfl fun k _ => ?_)
  rw [truncf_apply, rows_apply, shapeCast_self]

/-- The scores: each query against each key, along the features. -/
def scoreVec (q : FVec Ideal S2048x1024 .f32) (x1 : FVec Ideal S1x64x1024 .bf16) : FVec Ideal S2048x64 .f32 :=
  matmul dot_S2048x1024_S64x1024_S2048x64_1_1_0_0_n_n none (truncf .bf16 q bitsLt_bf16_f32)
    (shapeCast S64x1024 x1 shapeCasts_S1x64x1024_S64x1024) (constant S2048x64 .f32 0x00000000#32)

theorem scoreVec_apply (q : FVec Ideal S2048x1024 .f32) (x1 : FVec Ideal S1x64x1024 .bf16) (r : Fin 2048) (l : Fin 64) :
    scoreVec q x1 (ix2 r l) = scoreRow (fun h => q (ix2 r h)) (fun l h => x1 (ix3 (0 : Fin 1) l h)) l := by
  unfold scoreVec scoreRow
  rw [scoreDot_apply]
  refine Finset.sum_congr rfl fun k _ => ?_
  rw [truncf_apply, shapeCast_1ab_ab_apply]

/-- At the ideal values the lane maximum of a 2048 by 64 matrix over its second axis is, at row `r`, the fold of
    `max` from the accumulator's word over the 64 entries of the row. -/
theorem rowMaxLane_apply (src : FVec Ideal S2048x64 .f32) (h : S2048x64.Reduces [1] S2048) (hφ : FKind.Formats .f32)
    (hacc : (0xFF800000#32 : BitVec 32) = 0xFF800000#32) (r : Fin 2048) :
    multiReduction .maximumf [1] S2048 src 0xFF800000#32 h hφ hacc (ix1 r)
      = (Finset.univ : Finset (Fin 64)).fold max negInfW (fun l => src (ix2 r l)) :=
  (Ideal.multiReduction_maximumf_single src 0xFF800000#32 h hφ hacc (ix1 r)).trans
    (congrArg ((Finset.univ : Finset (Fin 64)).fold max negInfW) (funext fun l => congrArg src (funext fun d => Fin.ext (by
      match d with
      | ⟨0, _⟩ => rfl
      | ⟨1, _⟩ => rfl))))

/-- The row maximum the softmax subtracts. -/
def maxVec (sc : FVec Ideal S2048x64 .f32) : FVec Ideal S2048 .f32 :=
  maximumf (broadcast S2048 (Scalar.ofBits (F := Ideal) .f32 0xFF800000#32))
    (multiReduction .maximumf [1] S2048 sc 0xFF800000#32 reduces_S2048x64_S2048 (.inl rfl) rfl)

theorem maxVec_apply (sc : FVec Ideal S2048x64 .f32) (r : Fin 2048) : maxVec sc (ix1 r) = rowMax (fun l => sc (ix2 r l)) := by
  unfold maxVec rowMax
  rw [maximumf_apply, rowMaxLane_apply]
  rfl

/-- The exponentials of the scores less their row maximum. -/
def expVec (sc : FVec Ideal S2048x64 .f32) : FVec Ideal S2048x64 .f32 :=
  exp (subf sc (broadcastTo S2048x64 (shapeCast S2048x1 (maxVec sc) shapeCasts_S2048_S2048x1) broadcasts_S2048x1_S2048x64))

theorem expVec_apply (sc : FVec Ideal S2048x64 .f32) (r : Fin 2048) (l : Fin 64) :
    expVec sc (ix2 r l) = Ideal.exp (sc (ix2 r l) - rowMax (fun l => sc (ix2 r l))) := by
  unfold expVec
  show Ideal.exp (subf sc _ (ix2 r l)) = _
  rw [subf_apply, broadcastTo_a1_ab_apply, Cert.Keepdims.shapeCast_a_a1_apply, maxVec_apply]

/-- The softmax weights: each exponential over its row's sum. -/
def softmaxVec (sc : FVec Ideal S2048x64 .f32) : FVec Ideal S2048x64 .f32 :=
  divf (expVec sc) (broadcastTo S2048x64 (shapeCast S2048x1
    (multiReduction .add [1] S2048 (expVec sc) 0x00000000#32 reduces_S2048x64_S2048 (.inl rfl) rfl) shapeCasts_S2048_S2048x1) broadcasts_S2048x1_S2048x64)

theorem softmaxVec_apply (sc : FVec Ideal S2048x64 .f32) (r : Fin 2048) (l : Fin 64) :
    softmaxVec sc (ix2 r l) = softmaxRow (fun l => sc (ix2 r l)) l := by
  unfold softmaxVec softmaxRow
  rw [divf_apply, broadcastTo_a1_ab_apply, Cert.Keepdims.shapeCast_a_a1_apply, rowSum_apply, expVec_apply]
  refine congrArg (Ideal.div _) (Finset.sum_congr rfl fun l' _ => ?_)
  rw [expVec_apply]

/-- The mixture of the values plus the residual rows is the third payload. -/
theorem mix_eq (x0 : FVec Ideal S1x2048x1024 .f32) (x3 : FVec Ideal S1024x1024 .bf16) (x4 : FVec Ideal S1024 .f32)
    (x1 x2 : FVec Ideal S1x64x1024 .bf16) :
    k1_pay3 (F := Ideal) x0 x3 x4 x1 x2
      = addf (matmul dot_S2048x64_S64x1024_S2048x1024_1_0_0_1_n_n none
          (truncf .bf16 (softmaxVec (scoreVec (queryVec x0 x3 x4) x1)) bitsLt_bf16_f32)
          (shapeCast S64x1024 x2 shapeCasts_S1x64x1024_S64x1024) (constant S2048x1024 .f32 0x00000000#32)) (k1_pay2 x0) := rfl

theorem mix_apply (x0 : FVec Ideal S1x2048x1024 .f32) (x3 : FVec Ideal S1024x1024 .bf16) (x4 : FVec Ideal S1024 .f32)
    (x1 x2 : FVec Ideal S1x64x1024 .bf16) (r : Fin 2048) (h : Fin 1024) :
    k1_pay3 (F := Ideal) x0 x3 x4 x1 x2 (ix2 r h)
      = mixRow (softmaxRow (scoreRow (linRow (fun k => x0 (ix3 (0 : Fin 1) r k)) (fun o k => x3 (ix2 k o)) (fun o => x4 (ix1 o)))
          (fun l h => x1 (ix3 (0 : Fin 1) l h)))) (fun l h => x2 (ix3 (0 : Fin 1) l h)) (fun k => x0 (ix3 (0 : Fin 1) r k)) h := by
  rw [mix_eq]
  unfold mixRow
  rw [addf_apply, mixDot_apply, rows_apply]
  refine congrArg (· + x0 (ix3 (0 : Fin 1) r h)) (Finset.sum_congr rfl fun l _ => ?_)
  rw [truncf_apply, shapeCast_1ab_ab_apply, softmaxVec_apply]
  refine congrArg (· * x2 (ix3 (0 : Fin 1) l h)) (congrFun (congrArg softmaxRow (funext fun l' => ?_)) l)
  rw [scoreVec_apply]
  exact congrFun (congrArg (fun q => scoreRow q fun l h => x1 (ix3 (0 : Fin 1) l h)) (funext fun o => queryVec_apply x0 x3 x4 r o)) l'

end Cert.KernelIdeal.Hand

end
-- ==== Proof.AttnPayload.lean ====
/-
  The attention kernel's stored tile, entry by entry: the gate and the blend on top of the mixture.
  The gate's logit of row `r` is the lane sum of `out · wa`, plus the lane sum of `p · wb`, plus the bias; the stored
  entry is `g · out + (1 - g) · p` with `g` the logistic of the logit.  Together with the mixture's reading this makes
  row `r` of the stored tile the specification's row function of row `r` of `p`.
-/
import proofs.«139963_j36558761624275_2_alg».proof.Proof.AttnStages

noncomputable section

namespace Cert.KernelIdeal.Hand

open Cert.KernelIdeal Cert.KernelIdeal.Gen Cert.Attn Cert.Keepdims Cert.ColumnCasts
open Idealize.ShloMosaic Idealize.ShloMosaic.ValueIdx

/-- The gate's logit, kept as a column. -/
def logitVec (v1 v35 : FVec Ideal S2048x1024 .f32) (v33 : FVec Ideal S1x1024 .f32) (v43 : FVec Ideal S1 .f32) : FVec Ideal S2048x1 .f32 :=
  addf (addf (shapeCast S2048x1 (multiReduction .add [1] S2048 v35 0x00000000#32 reduces_S2048x1024_S2048 (.inl rfl) rfl) shapeCasts_S2048_S2048x1)
      (shapeCast S2048x1 (multiReduction .add [1] S2048 (mulf v1 (broadcastTo S2048x1024 v33 broadcasts_S1x1024_S2048x1024)) 0x00000000#32
        reduces_S2048x1024_S2048 (.inl rfl) rfl) shapeCasts_S2048_S2048x1))
    (broadcastTo S2048x1 (shapeCast S1x1 v43 shapeCasts_S1_S1x1) broadcasts_S1x1_S2048x1)

theorem logitVec_apply (v1 v35 : FVec Ideal S2048x1024 .f32) (v33 : FVec Ideal S1x1024 .f32) (v43 : FVec Ideal S1 .f32) (r : Fin 2048) :
    logitVec v1 v35 v33 v43 (ix2 r (0 : Fin 1))
      = ((∑ h : Fin 1024, v35 (ix2 r h)) + ∑ h : Fin 1024, v1 (ix2 r h) * v33 (ix2 (0 : Fin 1) h)) + v43 (ix1 (0 : Fin 1)) := by
  unfold logitVec
  rw [addf_apply, addf_apply, Cert.Keepdims.shapeCast_a_a1_apply, Cert.Keepdims.shapeCast_a_a1_apply, rowSum_apply, rowSum_apply,
    broadcastTo_1b_ab_apply, shapeCast_a_1a_apply]
  refine congrArg (fun z => (_ + z) + _) (Finset.sum_congr rfl fun h _ => ?_)
  rw [mulf_apply, broadcastTo_1b_ab_apply]

/-- The first payload is the blend under the logistic of the logit. -/
theorem blend_eq (v1 v29 v35 : FVec Ideal S2048x1024 .f32) (v33 : FVec Ideal S1x1024 .f32) (v43 : FVec Ideal S1 .f32) :
    k1_pay1 (F := Ideal) v1 v29 v33 v35 v43
      = shapeCast S1x2048x1024 (addf (mulf (broadcastTo S2048x1024 (logistic (logitVec v1 v35 v33 v43)) broadcasts_S2048x1_S2048x1024) v29)
          (mulf (broadcastTo S2048x1024 (subf (broadcast S2048x1 (Scalar.ofBits (F := Ideal) .f32 0x3F800000#32)) (logistic (logitVec v1 v35 v33 v43)))
            broadcasts_S2048x1_S2048x1024) v1)) shapeCasts_S2048x1024_S1x2048x1024 := rfl

theorem blend_apply (v1 v29 v35 : FVec Ideal S2048x1024 .f32) (v33 : FVec Ideal S1x1024 .f32) (v43 : FVec Ideal S1 .f32)
    (u : Fin 1) (r : Fin 2048) (h : Fin 1024) :
    k1_pay1 (F := Ideal) v1 v29 v33 v35 v43 (ix3 u r h)
      = blend (Ideal.logistic (((∑ h : Fin 1024, v35 (ix2 r h)) + ∑ h : Fin 1024, v1 (ix2 r h) * v33 (ix2 (0 : Fin 1) h)) + v43 (ix1 (0 : Fin 1))))
          (fun h => v29 (ix2 r h)) (fun h => v1 (ix2 r h)) h := by
  rw [blend_eq, shapeCast_ab_1ab_apply, addf_apply, mulf_apply, mulf_apply, broadcastTo_a1_ab_apply, broadcastTo_a1_ab_apply, subf_apply,
    broadcast_apply]
  show Ideal.logistic (logitVec v1 v35 v33 v43 (ix2 r (0 : Fin 1))) * _ + (oneW - Ideal.logistic (logitVec v1 v35 v33 v43 (ix2 r (0 : Fin 1)))) * _ = _
  rw [logitVec_apply]
  rfl

/-- The gate's first product, entry by entry: the mixture times the first half of the weight row. -/
theorem gateProd_apply (x0 : FVec Ideal S1x2048x1024 .f32) (x3 : FVec Ideal S1024x1024 .bf16) (x4 : FVec Ideal S1024 .f32)
    (x1 x2 : FVec Ideal S1x64x1024 .bf16) (x5 : FVec Ideal S1x1024 .f32) (r : Fin 2048) (h : Fin 1024) :
    k1_pay5 (F := Ideal) x0 x3 x4 x1 x2 x5 (ix2 r h) = k1_pay3 (F := Ideal) x0 x3 x4 x1 x2 (ix2 r h) * x5 (ix2 (0 : Fin 1) h) := by
  unfold k1_pay5
  rw [mulf_apply, broadcastTo_1b_ab_apply, shapeCast_self]

/-- The stored tile at `(u, r, h)`: the specification's row function of row `r` of `p`, at feature `h`. -/
theorem attn_payload (x0 : FVec Ideal S1x2048x1024 .f32) (x1 x2 : FVec Ideal S1x64x1024 .bf16) (x3 : FVec Ideal S1024x1024 .bf16)
    (x4 : FVec Ideal S1024 .f32) (x5 x6 : FVec Ideal S1x1024 .f32) (x7 : FVec Ideal S1 .f32) (u : Fin 1) (r : Fin 2048) (h : Fin 1024) :
    k1_pay1 (F := Ideal) (k1_pay2 x0) (k1_pay3 x0 x3 x4 x1 x2) (k1_pay4 x6) (k1_pay5 x0 x3 x4 x1 x2 x5) x7 (ix3 u r h)
      = attnRow (fun k => x0 (ix3 (0 : Fin 1) r k)) (fun l h => x1 (ix3 (0 : Fin 1) l h)) (fun l h => x2 (ix3 (0 : Fin 1) l h))
          (fun o k => x3 (ix2 k o)) (fun o => x4 (ix1 o)) (fun h => x5 (ix2 (0 : Fin 1) h)) (fun h => x6 (ix2 (0 : Fin 1) h))
          (x7 (ix1 (0 : Fin 1))) h := by
  rw [blend_apply]
  have e4 : k1_pay4 (F := Ideal) x6 = x6 := by unfold k1_pay4; exact shapeCast_self _ _
  unfold attnRow gateOf
  simp only [e4, gateProd_apply, mix_apply, rows_apply]

end Cert.KernelIdeal.Hand

end
-- ==== Proof.KernelRun.lean ====
/-
  The idealized kernel's run with its result array named.

  The program is two pipelines after a stretch of host operations; the launch theorem for such a program ends with
  every unscoped buffer of a core holding the last boundary's contents.  Read at the result buffer, that is what the
  second pipeline's write-backs leave in its output array (the array after all 16 grid points); read at an argument,
  it is the argument as launched.
-/
import proofs.«139963_j36558761624275_2_alg».proof.Defs
import proofs.«139963_j36558761624275_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the second
    pipeline's output array after its last grid point, and every argument is as launched. -/
theorem run_named : θ_run defs (onTc (τ := τ) (main (F := F))) ⟨m, fun _ => 0, ρ⟩ (fun r => ∀ c : Dev nD,
      r.2.mem ((c.tc : Thread nD τ).loc main_v9) = (dat1 (V2 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v9 (by decide))).trans (W3_arr m ρ c 8),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Hand

end
-- ==== Proof.AttnValue.lean ====
/-
  The second pipeline's output array after its run, and with it the idealized kernel's run read as a value.
  Its grid is 8 batch elements by 2 tiles; point `(b, s)` reads rows `(b, 2048 s + ·, ·)` of `p`, batch element `b` of
  the keys and of the values (the first pipeline's output arrays, which end as the specification's key and value
  arrays), the transposed query weights (a transpose and a change of float format by the host operations: the identity at
  the ideal values), the query bias, the two halves of the gate's weight row (two host slices) and the gate's bias, and
  writes back block `(b, s, ·)` of the result.  The 16 blocks tile the result array, so it ends as the specification's
  result array of the arguments.
-/
import proofs.«139963_j36558761624275_2_alg».proof.Proof.KvValue
import proofs.«139963_j36558761624275_2_alg».proof.Proof.AttnPayload
import proofs.«139963_j36558761624275_2_alg».proof.Proof.KernelRun

noncomputable section

namespace Cert.KernelIdeal.Hand

open Cert.KernelIdeal Cert.KernelIdeal.Gen Cert.Attn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the second pipeline finds in its arrays -/

/-- `p`, the query bias and the gate's bias are as launched: neither the host operations nor the first pipeline write them. -/
theorem entry1_p (c : Dev nD) : (V2 m ρ c main_arg0 : S8x4096x1024.Idx → EReal) = m ((c : Thread nD τ).loc main_arg0) :=
  (W2_of_ne m ρ c main_arg0 (by decide)).trans (by dsimp only [W1, W0, hostOps0]; after_results)
theorem entry1_bq (c : Dev nD) : (V2 m ρ c main_arg3 : S1024.Idx → EReal) = m ((c : Thread nD τ).loc main_arg3) :=
  (W2_of_ne m ρ c main_arg3 (by decide)).trans (by dsimp only [W1, W0, hostOps0]; after_results)
theorem entry1_bg (c : Dev nD) : (V2 m ρ c main_arg9 : S1.Idx → EReal) = m ((c : Thread nD τ).loc main_arg9) :=
  (W2_of_ne m ρ c main_arg9 (by decide)).trans (by dsimp only [W1, W0, hostOps0]; after_results)

/-- The keys and the values are what the first pipeline left. -/
theorem entry1_keys (c : Dev nD) : (V2 m ρ c main_v8_0 : S8x64x1024.Idx → EReal)
    = keyArr (m ((c : Thread nD τ).loc main_arg1)) (m ((c : Thread nD τ).loc main_arg4)) (m ((c : Thread nD τ).loc main_arg5)) :=
  (W2_arr m ρ c 5).trans (final_keys m ρ c)
theorem entry1_values (c : Dev nD) : (V2 m ρ c main_v8_1 : S8x64x1024.Idx → EReal)
    = valArr (m ((c : Thread nD τ).loc main_arg1)) (m ((c : Thread nD τ).loc main_arg6)) (m ((c : Thread nD τ).loc main_arg7)) :=
  (W2_arr m ρ c 6).trans (final_values m ρ c)

/-- The query weights as the pipeline finds them are the launched matrix transposed. -/
theorem entry1_wq (c : Dev nD) (k o : Fin 1024) :
    (V2 m ρ c main_v1 : S1024x1024.Idx → EReal) (ix2 k o) = (m ((c : Thread nD τ).loc main_arg2) : S1024x1024.Idx → EReal) (ix2 o k) := by
  have e : (V2 m ρ c main_v1 : S1024x1024.Idx → EReal)
      = truncf (F := Ideal) .bf16 (transpose S1024x1024 [1, 0] (m ((c : Thread nD τ).loc main_arg2) : S1024x1024.Idx → EReal) transposes_S1024x1024_S1024x1024_1_0) bitsLt_bf16_f32 :=
    (W2_of_ne m ρ c main_v1 (by decide)).trans (by dsimp only [W1, W0, hostOps0]; after_results)
  rw [e]
  exact transpose_ix2_apply _ _ k o

/-- The two halves of the gate's weight row, cut by the host. -/
theorem entry1_glo (c : Dev nD) (h : Fin 1024) :
    (V2 m ρ c main_v6 : S1x1024.Idx → EReal) (ix2 (0 : Fin 1) h) = gateLo (m ((c : Thread nD τ).loc main_arg8)) h := by
  have e : (V2 m ρ c main_v6 : S1x1024.Idx → EReal)
      = extractStridedSlice S1x1024 ![0, 0] (m ((c : Thread nD τ).loc main_arg8) : S1x2048.Idx → EReal) slices_S1x2048_S1x1024_0_0 :=
    (W2_of_ne m ρ c main_v6 (by decide)).trans (by dsimp only [W1, W0, hostOps0]; after_results)
  rw [e]
  exact slice2_axis1_apply 0 _ _ (0 : Fin 1) h ⟨h.val, by omega⟩ (Nat.zero_add _).symm
theorem entry1_ghi (c : Dev nD) (h : Fin 1024) :
    (V2 m ρ c main_v7 : S1x1024.Idx → EReal) (ix2 (0 : Fin 1) h) = gateHi (m ((c : Thread nD τ).loc main_arg8)) h := by
  have e : (V2 m ρ c main_v7 : S1x1024.Idx → EReal)
      = extractStridedSlice S1x1024 ![0, 1024] (m ((c : Thread nD τ).loc main_arg8) : S1x2048.Idx → EReal) slices_S1x2048_S1x1024_0_1024 :=
    (W2_of_ne m ρ c main_v7 (by decide)).trans (by dsimp only [W1, W0, hostOps0]; after_results)
  rw [e]
  exact slice2_axis1_apply 1024 _ _ (0 : Fin 1) h ⟨1024 + h.val, by omega⟩ rfl

/-! ## The blocks -/

/-- The printed index maps over the grid: point `t` is batch element `t / 2`, tile `t % 2`. -/
theorem idx1 : ∀ t : Fin cfg1.N,
    win1_0.index t (0 : Fin 3) = t.val / 2 ∧ win1_0.index t (1 : Fin 3) = t.val % 2 ∧ win1_0.index t (2 : Fin 3) = 0
    ∧ win1_8.index t (0 : Fin 3) = t.val / 2 ∧ win1_8.index t (1 : Fin 3) = t.val % 2 ∧ win1_8.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 2) = 0 ∧ win1_3.index t (1 : Fin 2) = 0 ∧ win1_4.index t (0 : Fin 1) = 0
    ∧ win1_5.index t (0 : Fin 2) = 0 ∧ win1_5.index t (1 : Fin 2) = 0 ∧ win1_6.index t (0 : Fin 2) = 0 ∧ win1_6.index t (1 : Fin 2) = 0
    ∧ win1_7.index t (0 : Fin 1) = 0 :=
  (by decide +kernel : ∀ t : Fin grid1.N, _)

/-- Row `r` of the point's `p` block is row `(b, 2048 s + r)` of `p`. -/
theorem pblock_apply (c : Dev nD) (t : Fin cfg1.N) (b : Fin 8) (hb : b.val = t.val / 2) (r : Fin 2048) (k : Fin 1024)
    (s : Fin 4096) (hs : s.val = (t.val % 2) * 2048 + r.val) :
    (iblk1 (V2 m ρ) c 0 t : S1x2048x1024.Idx → EReal) (ix3 (0 : Fin 1) r k)
      = (m ((c : Thread nD τ).loc main_arg0) : S8x4096x1024.Idx → EReal) (ix3 b s k) := by
  obtain ⟨e0, e1, e2, -⟩ := idx1 t
  unfold iblk1
  rw [View.read_apply]
  show (V2 m ρ c main_arg0 : S8x4096x1024.Idx → EReal) _ = _
  rw [entry1_p]
  refine congrArg _ (funext fun a => Fin.ext ?_)
  match a with
  | ⟨0, _⟩ => show win1_0.index t (0 : Fin 3) * 1 + 1 * 0 = b.val; omega
  | ⟨1, _⟩ => show win1_0.index t (1 : Fin 3) * 2048 + 1 * r.val = s.val; omega
  | ⟨2, _⟩ => show win1_0.index t (2 : Fin 3) * 1024 + 1 * k.val = k.val; omega

/-- The point's key block and value block are batch element `b` of the key array and of the value array. -/
theorem kblock_apply (c : Dev nD) (t : Fin cfg1.N) (b : Fin 8) (hb : b.val = t.val / 2) (l : Fin 64) (h : Fin 1024) :
    (iblk1 (V2 m ρ) c 1 t : S1x64x1024.Idx → EReal) (ix3 (0 : Fin 1) l h)
      = keyArr (m ((c : Thread nD τ).loc main_arg1)) (m ((c : Thread nD τ).loc main_arg4)) (m ((c : Thread nD τ).loc main_arg5)) (ix3 b l h) := by
  obtain ⟨-, -, -, -, -, -, e0, e1, e2, -⟩ := idx1 t
  unfold iblk1
  rw [View.read_apply]
  show (V2 m ρ c main_v8_0 : S8x64x1024.Idx → EReal) _ = _
  rw [entry1_keys]
  refine congrArg _ (funext fun a => Fin.ext ?_)
  match a with
  | ⟨0, _⟩ => show win1_1.index t (0 : Fin 3) * 1 + 1 * 0 = b.val; omega
  | ⟨1, _⟩ => show win1_1.index t (1 : Fin 3) * 64 + 1 * l.val = l.val; omega
  | ⟨2, _⟩ => show win1_1.index t (2 : Fin 3) * 1024 + 1 * h.val = h.val; omega
theorem vblock_apply (c : Dev nD) (t : Fin cfg1.N) (b : Fin 8) (hb : b.val = t.val / 2) (l : Fin 64) (h : Fin 1024) :
    (iblk1 (V2 m ρ) c 2 t : S1x64x1024.Idx → EReal) (ix3 (0 : Fin 1) l h)
      = valArr (m ((c : Thread nD τ).loc main_arg1)) (m ((c : Thread nD τ).loc main_arg6)) (m ((c : Thread nD τ).loc main_arg7)) (ix3 b l h) := by
  obtain ⟨-, -, -, -, -, -, -, -, -, e0, e1, e2, -⟩ := idx1 t
  unfold iblk1
  rw [View.read_apply]
  show (V2 m ρ c main_v8_1 : S8x64x1024.Idx → EReal) _ = _
  rw [entry1_values]
  refine congrArg _ (funext fun a => Fin.ext ?_)
  match a with
  | ⟨0, _⟩ => show win1_2.index t (0 : Fin 3) * 1 + 1 * 0 = b.val; omega
  | ⟨1, _⟩ => show win1_2.index t (1 : Fin 3) * 64 + 1 * l.val = l.val; omega
  | ⟨2, _⟩ => show win1_2.index t (2 : Fin 3) * 1024 + 1 * h.val = h.val; omega

/-- The whole-array windows' blocks are their arrays. -/
theorem wqblock_apply (c : Dev nD) (t : Fin cfg1.N) (k o : Fin 1024) :
    (iblk1 (V2 m ρ) c 3 t : S1024x1024.Idx → EReal) (ix2 k o) = (m ((c : Thread nD τ).loc main_arg2) : S1024x1024.Idx → EReal) (ix2 o k) := by
  obtain ⟨-, -, -, -, -, -, -, -, -, -, -, -, e0, e1, -⟩ := idx1 t
  unfold iblk1
  rw [View.read_apply]
  show (V2 m ρ c main_v1 : S1024x1024.Idx → EReal) _ = _
  rw [← entry1_wq m ρ c k o]
  refine congrArg _ (funext fun a => Fin.ext ?_)
  match a with
  | ⟨0, _⟩ => show win1_3.index t (0 : Fin 2) * 1024 + 1 * k.val = k.val; omega
  | ⟨1, _⟩ => show win1_3.index t (1 : Fin 2) * 1024 + 1 * o.val = o.val; omega
theorem bqblock_apply (c : Dev nD) (t : Fin cfg1.N) (o : Fin 1024) :
    (iblk1 (V2 m ρ) c 4 t : S1024.Idx → EReal) (ix1 o) = (m ((c : Thread nD τ).loc main_arg3) : S1024.Idx → EReal) (ix1 o) := by
  obtain ⟨-, -, -, -, -, -, -, -, -, -, -, -, -, -, e0, -⟩ := idx1 t
  unfold iblk1
  rw [View.read_apply]
  show (V2 m ρ c main_arg3 : S1024.Idx → EReal) _ = _
  rw [entry1_bq]
  refine congrArg _ (funext fun a => Fin.ext ?_)
  match a with
  | ⟨0, _⟩ => show win1_4.index t (0 : Fin 1) * 1024 + 1 * o.val = o.val; omega
theorem globlock_apply (c : Dev nD) (t : Fin cfg1.N) (h : Fin 1024) :
    (iblk1 (V2 m ρ) c 5 t : S1x1024.Idx → EReal) (ix2 (0 : Fin 1) h) = gateLo (m ((c : Thread nD τ).loc main_arg8)) h := by
  obtain ⟨-, -, -, -, -, -, -, -, -, -, -, -, -, -, -, e0, e1, -⟩ := idx1 t
  unfold iblk1
  rw [View.read_apply]
  show (V2 m ρ c main_v6 : S1x1024.Idx → EReal) _ = _
  rw [← entry1_glo m ρ c h]
  refine congrArg _ (funext fun a => Fin.ext ?_)
  match a with
  | ⟨0, _⟩ => show win1_5.index t (0 : Fin 2) * 1 + 1 * 0 = 0; omega
  | ⟨1, _⟩ => show win1_5.index t (1 : Fin 2) * 1024 + 1 * h.val = h.val; omega
theorem ghiblock_apply (c : Dev nD) (t : Fin cfg1.N) (h : Fin 1024) :
    (iblk1 (V2 m ρ) c 6 t : S1x1024.Idx → EReal) (ix2 (0 : Fin 1) h) = gateHi (m ((c : Thread nD τ).loc main_arg8)) h := by
  obtain ⟨-, -, -, -, -, -, -, -, -, -, -, -, -, -, -, -, -, e0, e1, -⟩ := idx1 t
  unfold iblk1
  rw [View.read_apply]
  show (V2 m ρ c main_v7 : S1x1024.Idx → EReal) _ = _
  rw [← entry1_ghi m ρ c h]
  refine congrArg _ (funext fun a => Fin.ext ?_)
  match a with
  | ⟨0, _⟩ => show win1_6.index t (0 : Fin 2) * 1 + 1 * 0 = 0; omega
  | ⟨1, _⟩ => show win1_6.index t (1 : Fin 2) * 1024 + 1 * h.val = h.val; omega
theorem bgblock_apply (c : Dev nD) (t : Fin cfg1.N) :
    (iblk1 (V2 m ρ) c 7 t : S1.Idx → EReal) (ix1 (0 : Fin 1)) = (m ((c : Thread nD τ).loc main_arg9) : S1.Idx → EReal) (ix1 (0 : Fin 1)) := by
  obtain ⟨-, -, -, -, -, -, -, -, -, -, -, -, -, -, -, -, -, -, -, e0⟩ := idx1 t
  unfold iblk1
  rw [View.read_apply]
  show (V2 m ρ c main_arg9 : S1.Idx → EReal) _ = _
  rw [entry1_bg]
  refine congrArg _ (funext fun a => Fin.ext ?_)
  match a with
  | ⟨0, _⟩ => show win1_7.index t (0 : Fin 1) * 1 + 1 * 0 = 0; omega

/-! ## The stored tile against the result array -/

/-- When the body's eight blocks are rows `(b, s0 + ·, ·)` of `P`, batch element `b` of `K` and of `V`, the transposed query
    weights, the query bias, the two halves of the gate's weight row and the gate's bias, entry `(u, r, h)` of the stored
    tile is the result array's entry `(b, s0 + r, h)`. -/
theorem attn_tile (x0 : FVec Ideal S1x2048x1024 .f32) (x1 x2 : FVec Ideal S1x64x1024 .bf16) (x3 : FVec Ideal S1024x1024 .bf16)
    (x4 : FVec Ideal S1024 .f32) (x5 x6 : FVec Ideal S1x1024 .f32) (x7 : FVec Ideal S1 .f32)
    (P : S8x4096x1024.Idx → EReal) (K V : S8x64x1024.Idx → EReal) (Wq : S1024x1024.Idx → EReal) (bq : S1024.Idx → EReal)
    (Wg : S1x2048.Idx → EReal) (bg : S1.Idx → EReal) (b : Fin 8) (u : Fin 1) (r : Fin 2048) (h : Fin 1024) (i : S8x4096x1024.Idx)
    (h0 : ∀ k : Fin 1024, x0 (ix3 (0 : Fin 1) r k) = P (ix3 b (i 1) k))
    (h1 : ∀ (l : Fin 64) (h : Fin 1024), x1 (ix3 (0 : Fin 1) l h) = K (ix3 b l h))
    (h2 : ∀ (l : Fin 64) (h : Fin 1024), x2 (ix3 (0 : Fin 1) l h) = V (ix3 b l h))
    (h3 : ∀ k o : Fin 1024, x3 (ix2 k o) = Wq (ix2 o k)) (h4 : ∀ o : Fin 1024, x4 (ix1 o) = bq (ix1 o))
    (h5 : ∀ h : Fin 1024, x5 (ix2 (0 : Fin 1) h) = gateLo Wg h) (h6 : ∀ h : Fin 1024, x6 (ix2 (0 : Fin 1) h) = gateHi Wg h)
    (h7 : x7 (ix1 (0 : Fin 1)) = bg (ix1 (0 : Fin 1)))
    (hi0 : (i 0).val = b.val + u.val) (hi2 : (i 2).val = h.val) :
    k1_pay1 (F := Ideal) (k1_pay2 x0) (k1_pay3 x0 x3 x4 x1 x2) (k1_pay4 x6) (k1_pay5 x0 x3 x4 x1 x2 x5) x7 (ix3 u r h)
      = outArr P K V Wq bq Wg bg i := by
  have e0 : i 0 = b := Fin.ext (by omega)
  have e2 : i 2 = h := Fin.ext hi2
  rw [attn_payload]
  unfold outArr
  rw [e0, e2]
  simp only [h0, h1, h2, h3, h4, h5, h6, h7]

/-! ## What each point writes back, and the result array after the run -/

/-- The point's batch element. -/
def batchOf1 (t : Fin cfg1.N) : Fin 8 := ⟨t.val / 2, by
  have h : t.val < 16 := (show t.val < grid1.N from t.isLt).trans_eq N_1
  omega⟩

/-- The specification's result array of the launch contents. -/
abbrev resultOf (c : Dev nD) : S8x4096x1024.Idx → EReal :=
  outArr (m ((c : Thread nD τ).loc main_arg0))
    (keyArr (m ((c : Thread nD τ).loc main_arg1)) (m ((c : Thread nD τ).loc main_arg4)) (m ((c : Thread nD τ).loc main_arg5)))
    (valArr (m ((c : Thread nD τ).loc main_arg1)) (m ((c : Thread nD τ).loc main_arg6)) (m ((c : Thread nD τ).loc main_arg7)))
    (m ((c : Thread nD τ).loc main_arg2)) (m ((c : Thread nD τ).loc main_arg3)) (m ((c : Thread nD τ).loc main_arg8))
    (m ((c : Thread nD τ).loc main_arg9))

/-- Point `t` writes back block `t` of the result array. -/
theorem flushed_out (c : Dev nD) (t : Fin cfg1.N) :
    (dat1 (V2 m ρ) c).flushed 8 t = ((cfg1.win 8).blk t).view.read (Elt Ideal) (resultOf m c) := by
  show (cfg1.win 8).cut (grid1.coords t) ((dat1 (V2 m ρ) c).after 8 t) = _
  rw [after1_8]
  unfold out1_8
  rw [View.canon_unit_zero hz3]
  simp only [View.ld_unit_zero (S := S1x2048x1024) hz3, View.ld_unit_zero (S := S1024x1024) hz2, View.ld_unit_zero (S := S1024) hz1,
    View.ld_unit_zero (S := S1x64x1024) hz3, View.ld_unit_zero (S := S1x1024) hz2, View.ld_unit_zero (S := S1) hz1]
  obtain ⟨-, -, -, e0, e1, e2, -⟩ := idx1 t
  have ht : t.val < 16 := (show t.val < grid1.N from t.isLt).trans_eq N_1
  refine funext fun (j : S1x2048x1024.Idx) => ?_
  obtain ⟨u, r, h, rfl⟩ : ∃ (u : Fin 1) (r : Fin 2048) (h : Fin 1024), j = ix3 u r h := ⟨j 0, j 1, j 2, eq_ix3 j⟩
  refine attn_tile _ _ _ _ _ _ _ _ _ _ _ _ _ _ _ (batchOf1 t) u r h _
    (fun k => pblock_apply m ρ c t (batchOf1 t) rfl r k _ ?_) (fun l h => kblock_apply m ρ c t (batchOf1 t) rfl l h)
    (fun l h => vblock_apply m ρ c t (batchOf1 t) rfl l h) (fun k o => wqblock_apply m ρ c t k o) (fun o => bqblock_apply m ρ c t o)
    (fun h => globlock_apply m ρ c t h) (fun h => ghiblock_apply m ρ c t h) (bgblock_apply m ρ c t) ?_ ?_
  · show win1_8.index t (1 : Fin 3) * 2048 + 1 * r.val = (t.val % 2) * 2048 + r.val; omega
  · show win1_8.index t (0 : Fin 3) * 1 + 1 * u.val = t.val / 2 + u.val; omega
  · show win1_8.index t (2 : Fin 3) * 1024 + 1 * h.val = h.val; omega

/-- Every entry `(b, s, h)` of the result array is in the block of point `2 b + s / 2048`. -/
theorem out_cover (i : S8x4096x1024.Idx) : ∃ t : Fin cfg1.N, (cfg1.win 8).flush t = true ∧ i ∈ ((cfg1.win 8).blk t).view.set := by
  have hi0 : (i 0).val < 8 := (i 0).isLt
  have hi1 : (i 1).val < 4096 := (i 1).isLt
  have hi2 : (i 2).val < 1024 := (i 2).isLt
  let t : Fin cfg1.N := ⟨2 * (i 0).val + (i 1).val / 2048, by rw [show cfg1.N = 16 from N_1]; omega⟩
  obtain ⟨-, -, -, e0, e1, e2, -⟩ := idx1 t
  have q0 : win1_8.index t (0 : Fin 3) = (i 0).val := by rw [e0]; show (2 * (i 0).val + (i 1).val / 2048) / 2 = (i 0).val; omega
  have q1 : win1_8.index t (1 : Fin 3) = (i 1).val / 2048 := by rw [e1]; show (2 * (i 0).val + (i 1).val / 2048) % 2 = (i 1).val / 2048; omega
  refine ⟨t, flush1_8 t, ?_⟩
  show i ∈ ((View.whole main_v9).slice (win1_8.rect t)).set
  rw [View.set_slice_whole, Rect.mem_set_unit]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 2048 ≤ (i 1).val ∧ (i 1).val < win1_8.index t (1 : Fin 3) * 2048 + 2048; omega
  | ⟨2, _⟩ => show win1_8.index t (2 : Fin 3) * 1024 ≤ (i 2).val ∧ (i 2).val < win1_8.index t (2 : Fin 3) * 1024 + 1024; omega

/-- After the second pipeline its output array is the specification's result array of the arguments. -/
theorem final_out (c : Dev nD) : (dat1 (V2 m ρ) c).arrAt 8 cfg1.N = resultOf m c :=
  (dat1 (V2 m ρ) c).arrAt_eq_of_cover 8 _ (fun t _ => flushed_out m ρ c t) out_cover

/-- The idealized kernel's run, read: the result buffer ends at the specification's result array of the launch contents,
    and every argument is as launched. -/
theorem run_value : θ_run defs (onTc (τ := τ) (main (F := Ideal))) ⟨m, fun _ => 0, ρ⟩ (fun r => ∀ c : Dev nD,
      r.2.mem ((c.tc : Thread nD τ).loc main_v9) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (final_out m ρ c), (h c).2⟩) (run_named m ρ)

end Cert.KernelIdeal.Hand

end
-- ==== Proof.lean ====
/-
  Cross-attention with a post-softmax scale and a sigmoid-gated residual: a two-pipeline kernel against its jnp reference,
  equal at the ideal values.

  The kernel first projects every batch element's 64 rows of `x` to keys `x·Wkᵀ + bk` and to values
  `(x·Wvᵀ + bv) · 0.03125`; its second pipeline, tile by tile of 2048 query rows, projects the queries `p·Wqᵀ + bq`,
  takes the softmax of the scores over the 64 keys, mixes the scaled values, adds the residual `p`, and blends
  `g·out + (1 - g)·p` under the gate `g = logistic (out·wg₁ + p·wg₂ + bg)`, the gate's weight row cut in two by the host.
  The reference does the same with the scale applied to the softmax weights, `softmax / √1024`, before mixing unscaled
  values, and the gate as `1 / (1 + e^(-z))` of one 2048-term product of `[out, p]` with the whole weight row.

  On the extended reals the two are one function of the arguments, entry by entry (`Cert.Attn.outArr`):
  `√1024 = 32` and `0.03125 = 1/32` exactly, and `(w / 32) · v = w · (v · (1/32))` by commutativity and associativity of the
  product; the 2048-term sum is the two 1024-term sums; `1 / (1 + e^(-z))` is the logistic function; matrix products and
  lane sums are plain sums, the lane maximum a fold of `max`, and every change of float format the identity.  No law
  used needs a finite operand, so the precondition is not opened.

  The kernel's side: the run of the two pipelines with the result buffer named (`KernelRun`), the first pipeline's output
  arrays as the key and value arrays (`KvValue` over `KvPayload`), the second's as the result array (`AttnValue` over
  `AttnStages`, `AttnPayload`).  The reference's side: its run read back and its stages at an entry (`RefValue`).
  The word-level kernel needs its frame only; the ideal pass rewrote nothing, so `preserves` is `True`.
-/
import proofs.«139963_j36558761624275_2_alg».proof.Defs
import proofs.«139963_j36558761624275_2_alg».proof.Proof.Gen.Kernel
import proofs.«139963_j36558761624275_2_alg».proof.Proof.Gen.Kernel.Skeleton
import proofs.«139963_j36558761624275_2_alg».proof.Proof.Gen.Kernel.Launch
import proofs.«139963_j36558761624275_2_alg».proof.Proof.Gen.Kernel.Points
import proofs.«139963_j36558761624275_2_alg».proof.Proof.Gen.Kernel.Frame
import proofs.«139963_j36558761624275_2_alg».proof.Proof.Gen.KernelIdeal
import proofs.«139963_j36558761624275_2_alg».proof.Proof.Gen.KernelIdeal.Skeleton
import proofs.«139963_j36558761624275_2_alg».proof.Proof.Gen.KernelIdeal.Launch
import proofs.«139963_j36558761624275_2_alg».proof.Proof.Gen.KernelIdeal.Points
import proofs.«139963_j36558761624275_2_alg».proof.Proof.Gen.KernelIdeal.Frame
import proofs.«139963_j36558761624275_2_alg».proof.Proof.Gen.ReferenceIdeal
import proofs.«139963_j36558761624275_2_alg».proof.Proof.Gen.Pre_finite_inputs
import proofs.«139963_j36558761624275_2_alg».proof.Proof.RefRunP
import proofs.«139963_j36558761624275_2_alg».proof.Proof.RefReadP
import proofs.«139963_j36558761624275_2_alg».proof.Proof.RefValue
import proofs.«139963_j36558761624275_2_alg».proof.Proof.AttnValue
import Idealize.ShloMosaic.Adequacy
import Idealize.ShloMosaic.Init

noncomputable section

namespace Cert.Proof

open Idealize.ShloMosaic Idealize.ShloMosaic.TcCoe Idealize.SL.Sem

/-- The word-level kernel and its idealization run, fault-free, with their arguments unchanged. -/
theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- At the ideal values both programs end with the specification's result array of the (agreeing) arguments. -/
theorem algebraic : Cert.algebraic_KernelIdeal_ReferenceIdeal := by
  intro m ρ m' ρ' _ hagree
  refine ⟨fun c => Cert.KernelIdeal.Hand.resultOf m c, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, Cert.ReferenceIdeal.Hand.result_eq]
  obtain ⟨a0, a1, a2, a3, a4, a5, a6, a7, a8, a9⟩ := hagree c
  rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
